-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x800000 : Shape := ⟨2, ![2, 800000]⟩
abbrev S2x256 : Shape := ⟨2, ![2, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S2x256 : S_.BroadcastsInDim S2x256 (![] : Fin 0 → Fin S2x256.rank)
  reducesTo_S2x256_S_d0_1 : S2x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S256x10 .f32) (main_arg9 : FVec F S10 .f32) (main_v33 : IVec S_ 1) : IVec S_ 1 :=
  let main_v34 : FVec F S256x10 .f32 := Host.absf main_arg8
  let main_cst_12 : FVec F S_ .f32 := constant S_ .f32 0x7F800000#32
  let main_v35 : FVec F S256x10 .f32 := broadcastInDim S256x10 ![] bcast_S_S256x10 main_cst_12
  let main_v36 : IVec S256x10 1 := cmpf .olt main_v34 main_v35
  let main_c_13 : IVec S_ 1 := constantI S_ 1 1#1
  let main_v37 : IVec S_ 1 := (fun x v => Host.reduce IntOp.andi x v reducesTo_S256x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x10 .f32) (main_arg9 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x2 .f32) (main_arg1 : IVec S2x800000 32) (main_arg2 : FVec F S2x256 .f32) (main_arg3 : FVec F S256 .f32) (main_arg4 : FVec F S256 .f32) (main_arg5 : FVec F S256 .f32) (main_arg6 : FVec F S256x256 .f32) (main_arg7 : FVec F S256 .f32) (main_arg8 : FVec F S256x10 .f32) (main_arg9 : FVec F S10 .f32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S2x256 .f32 := Host.absf main_arg2
  let main_cst_0 : FVec F S_ .f32 := constant S_ .f32 0x7F800000#32
  let main_v5 : FVec F S2x256 .f32 := broadcastInDim S2x256 ![] bcast_S_S2x256 main_cst_0
  let main_v6 : IVec S2x256 1 := cmpf .olt main_v4 main_v5
  let main_c_1 : IVec S_ 1 := constantI S_ 1 1#1
  let main_v7 : IVec S_ 1 := (fun x v => Host.reduce IntOp.andi x v reducesTo_S2x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S50000x2 : Shape := ⟨2, ![50000, 2]⟩
abbrev S2x800000 : Shape := ⟨2, ![2, 800000]⟩
abbrev S2x256 : Shape := ⟨2, ![2, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x2 : Shape := ⟨2, ![850000, 2]⟩
abbrev S16x256 : Shape := ⟨2, ![16, 256]⟩
abbrev S5000x2 : Shape := ⟨2, ![5000, 2]⟩
abbrev S8x256 : Shape := ⟨2, ![8, 256]⟩
abbrev S5000x256 : Shape := ⟨2, ![5000, 256]⟩
abbrev S1x256 : Shape := ⟨2, ![1, 256]⟩
abbrev S5000 : Shape := ⟨1, ![5000]⟩
abbrev S5000x1 : Shape := ⟨2, ![5000, 1]⟩
abbrev S2x8x256 : Shape := ⟨3, ![2, 8, 256]⟩
abbrev S2x1x256 : Shape := ⟨3, ![2, 1, 256]⟩
abbrev S1x10 : Shape := ⟨2, ![1, 10]⟩
abbrev S1 : Shape := ⟨1, ![1]⟩
abbrev S1x1 : Shape := ⟨2, ![1, 1]⟩

abbrev nBuf : Space → Nat
  | .hbm => 97
  | .vmem => 8
  | .smem => 0
  | _ => 0

abbrev bufTy : (tb : Table) → Fin (tcTables nBuf tb) → BufTy
  | .hbm, ⟨0, _⟩ => ⟨S50000x2, .f32⟩
  | .hbm, ⟨1, _⟩ => ⟨S2x800000, .i32⟩
  | .hbm, ⟨2, _⟩ => ⟨S2x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x10, .f32⟩
  | .hbm, ⟨9, _⟩ => ⟨S10, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x2, .f32⟩
  | .hbm, ⟨59, _⟩ => ⟨S850000x1, .f32⟩
  | .hbm, ⟨60, _⟩ => ⟨S850000x2, .f32⟩
  | .hbm, ⟨61, _⟩ => ⟨S850000x2, .f32⟩
  | .hbm, ⟨62, _⟩ => ⟨S_, .f32⟩
  | .hbm, ⟨63, _⟩ => ⟨S50000x2, .f32⟩
  | .hbm, ⟨64, _⟩ => ⟨S850000x1, .i32⟩
  | .hbm, ⟨65, _⟩ => ⟨S50000x2, .f32⟩
  | .hbm, ⟨66, _⟩ => ⟨S16x256, .f32⟩
  | .hbm, ⟨67, _⟩ => ⟨S2x8x256, .f32⟩
  | .hbm, ⟨68, _⟩ => ⟨S2x1x256, .f32⟩
  | .hbm, ⟨69, _⟩ => ⟨S2x256, .f32⟩
  | .hbm, ⟨70, _⟩ => ⟨S_, .f32⟩
  | .hbm, ⟨71, _⟩ => ⟨S256, .f32⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S_, .f32⟩
  | .hbm, ⟨77, _⟩ => ⟨S1x256, .f32⟩
  | .hbm, ⟨78, _⟩ => ⟨S1x256, .f32⟩
  | .hbm, ⟨79, _⟩ => ⟨S1x10, .f32⟩
  | .hbm, ⟨80, _⟩ => ⟨S1x10, .f32⟩
  | .hbm, ⟨81, _⟩ => ⟨S1x10, .f32⟩
  | .hbm, ⟨82, _⟩ => ⟨S_, .f32⟩
  | .hbm, ⟨83, _⟩ => ⟨S1, .f32⟩
  | .hbm, ⟨84, _⟩ => ⟨S_, .f32⟩
  | .hbm, ⟨85, _⟩ => ⟨S1, .f32⟩
  | .hbm, ⟨86, _⟩ => ⟨S1, .f32⟩
  | .hbm, ⟨87, _⟩ => ⟨S1x1, .f32⟩
  | .hbm, ⟨88, _⟩ => ⟨S1x10, .f32⟩
  | .hbm, ⟨89, _⟩ => ⟨S1x10, .f32⟩
  | .hbm, ⟨90, _⟩ => ⟨S1x10, .f32⟩
  | .hbm, ⟨91, _⟩ => ⟨S_, .f32⟩
  | .hbm, ⟨92, _⟩ => ⟨S1, .f32⟩
  | .hbm, ⟨93, _⟩ => ⟨S1x1, .f32⟩
  | .hbm, ⟨94, _⟩ => ⟨S1x1, .f32⟩
  | .hbm, ⟨95, _⟩ => ⟨S1x10, .f32⟩
  | .hbm, ⟨96, _⟩ => ⟨S1x10, .f32⟩
  | .local _ .vmem, ⟨0, _⟩ => ⟨S5000x2, .f32⟩
  | .local _ .vmem, ⟨1, _⟩ => ⟨S5000x2, .f32⟩
  | .local _ .vmem, ⟨2, _⟩ => ⟨S2x256, .f32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S8x256, .f32⟩
  | .local _ .vmem, ⟨7, _⟩ => ⟨S8x256, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call2_cst : Ref sig .tc := ⟨.hbm, 82, rfl⟩
abbrev main_call2_v0 : Ref sig .tc := ⟨.hbm, 83, rfl⟩
abbrev main_call2_cst_0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_cst_1 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_v56 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  inb_S8x256_S8x256_0_0 : ∀ a, (![0, 0] : Fin 2 → Nat) a + S8x256.size a ≤ S8x256.size a
  h_S8x256 : 0 < S8x256.numel
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  inb_S2x256_S2x256_0_0 : ∀ a, (![0, 0] : Fin 2 → Nat) a + S2x256.size a ≤ S2x256.size a
  h_S2x256 : 0 < S2x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  reduces_S5000x256_S5000 : S5000x256.Reduces [1] S5000
  shapeCasts_S5000_S5000x1 : S5000.ShapeCasts S5000x1
  broadcasts_S5000x1_S5000x256 : S5000x1.Broadcasts S5000x256
  reduces_S5000x256_S256 : S5000x256.Reduces [0] S256
  inb_S8x256_S1x256_0_0 : ∀ a, (![0, 0] : Fin 2 → Nat) a + S1x256.size a ≤ S8x256.size a
  h_S1x256 : 0 < S1x256.numel
  shapeCasts_S1x256_S1x256 : S1x256.ShapeCasts S1x256
  shapeCasts_S16x256_S2x8x256 : S16x256.ShapeCasts S2x8x256
  slices_S2x8x256_S2x1x256_0_0_0 : S2x8x256.Slices ![0, 0, 0] S2x1x256
  shapeCasts_S2x1x256_S2x256 : S2x1x256.ShapeCasts S2x256
  reducesTo_S2x256_S256_d0 : S2x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S10_S1x10_1 : S10.BroadcastsInDim S1x10 (![1] : Fin 1 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  dot_S5000x2_S2x256_S5000x256_1_0_0_1_n_n_wf : DotDims.WF S5000x2 S2x256 S5000x256 [1] [0] [0] [1] [] []
  dot_S1x256_S256x256_S1x256_1_0_0_1_n_n_wf : DotDims.WF S1x256 S256x256 S1x256 [1] [0] [0] [1] [] []
  dot_S1x256_S256x10_S1x10_1_0_0_1_n_n_wf : DotDims.WF S1x256 S256x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S50000x2.size a
  hwx0_0 : ∀ i : grid0.Coords, EltTy.bits .f32 = 32 ∨ (Rect.block (s := S50000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x256.size a ≤ S2x256.size a
  hwx0_1 : ∀ i : grid0.Coords, EltTy.bits .f32 = 32 ∨ (Rect.block (s := S2x256) S2x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S16x256.size a
  hwx0_5 : ∀ i : grid0.Coords, EltTy.bits .f32 = 32 ∨ (Rect.block (s := S16x256) S8x256.size (cc0_transform_5 i) (hinb0_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf
def dot_S5000x2_S2x256_S5000x256_1_0_0_1_n_n : DotDims S5000x2 S2x256 S5000x256 where
  lhsContracting := [1]
  rhsContracting := [0]
  lhsNonContracting := [0]
  rhsNonContracting := [1]
  lhsBatch := []
  rhsBatch := []
  wf := dot_S5000x2_S2x256_S5000x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1x256_S256x10_S1x10_1_0_0_1_n_n : DotDims S1x256 S256x10 S1x10 where
  lhsContracting := [1]
  rhsContracting := [0]
  lhsNonContracting := [0]
  rhsNonContracting := [1]
  lhsBatch := []
  rhsBatch := []
  wf := dot_S1x256_S256x10_S1x10_1_0_0_1_n_n_wf

abbrev win0_0 : Pipeline.Window sig grid0 :=
  Pipeline.Window.ofSpec (Memref.whole main_v42) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S8x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x2 : Shape := ⟨2, ![50000, 2]⟩
abbrev S2x800000 : Shape := ⟨2, ![2, 800000]⟩
abbrev S2x256 : Shape := ⟨2, ![2, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x1 : Shape := ⟨2, ![50000, 1]⟩
abbrev S1x10 : Shape := ⟨2, ![1, 10]⟩
abbrev S1 : Shape := ⟨1, ![1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S50000x2, .f32⟩
  | 1 => ⟨S2x800000, .i32⟩
  | 2 => ⟨S2x256, .f32⟩
  | 3 => ⟨S256, .f32⟩
  | 4 => ⟨S256, .f32⟩
  | 5 => ⟨S256, .f32⟩
  | 6 => ⟨S256x256, .f32⟩
  | 7 => ⟨S256, .f32⟩
  | 8 => ⟨S256x10, .f32⟩
  | 9 => ⟨S10, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x256, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x256, .f32⟩
  | 60 => ⟨S850000x1, .f32⟩
  | 61 => ⟨S850000x256, .f32⟩
  | 62 => ⟨S850000x256, .f32⟩
  | 63 => ⟨S_, .f32⟩
  | 64 => ⟨S50000x256, .f32⟩
  | 65 => ⟨S850000x1, .i32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S_, .f32⟩
  | 74 => ⟨S50000, .f32⟩
  | 75 => ⟨S50000x1, .f32⟩
  | 76 => ⟨S_, .f32⟩
  | 77 => ⟨S50000x1, .f32⟩
  | 78 => ⟨S50000x1, .f32⟩
  | 79 => ⟨S50000x256, .f32⟩
  | 80 => ⟨S50000x256, .f32⟩
  | 81 => ⟨S50000x256, .f32⟩
  | 82 => ⟨S_, .f32⟩
  | 83 => ⟨S50000, .f32⟩
  | 84 => ⟨S50000x1, .f32⟩
  | 85 => ⟨S_, .f32⟩
  | 86 => ⟨S50000x1, .f32⟩
  | 87 => ⟨S50000x1, .f32⟩
  | 88 => ⟨S50000x256, .f32⟩
  | 89 => ⟨S50000x256, .f32⟩
  | 90 => ⟨S_, .f32⟩
  | 91 => ⟨S50000x1, .f32⟩
  | 92 => ⟨S50000x1, .f32⟩
  | 93 => ⟨S50000x1, .f32⟩
  | 94 => ⟨S50000x256, .f32⟩
  | 95 => ⟨S50000x256, .f32⟩
  | 96 => ⟨S1x256, .f32⟩
  | 97 => ⟨S50000x256, .f32⟩
  | 98 => ⟨S50000x256, .f32⟩
  | 99 => ⟨S1x256, .f32⟩
  | 100 => ⟨S50000x256, .f32⟩
  | 101 => ⟨S50000x256, .f32⟩
  | 102 => ⟨S_, .f32⟩
  | 103 => ⟨S256, .f32⟩
  | 104 => ⟨S1x256, .f32⟩
  | 105 => ⟨S1x256, .f32⟩
  | 106 => ⟨S1x256, .f32⟩
  | 107 => ⟨S1x256, .f32⟩
  | 108 => ⟨S_, .f32⟩
  | 109 => ⟨S1x256, .f32⟩
  | 110 => ⟨S1x256, .f32⟩
  | 111 => ⟨S1x10, .f32⟩
  | 112 => ⟨S1x10, .f32⟩
  | 113 => ⟨S1x10, .f32⟩
  | 114 => ⟨S_, .f32⟩
  | 115 => ⟨S1, .f32⟩
  | 116 => ⟨S_, .f32⟩
  | 117 => ⟨S1, .f32⟩
  | 118 => ⟨S1, .f32⟩
  | 119 => ⟨S1x1, .f32⟩
  | 120 => ⟨S1x10, .f32⟩
  | 121 => ⟨S1x10, .f32⟩
  | 122 => ⟨S1x10, .f32⟩
  | 123 => ⟨S_, .f32⟩
  | 124 => ⟨S1, .f32⟩
  | 125 => ⟨S1x1, .f32⟩
  | 126 => ⟨S1x1, .f32⟩
  | 127 => ⟨S1x10, .f32⟩
  | _ => ⟨S50000x2, .f32⟩

abbrev hbmTy0_1 (i : Nat) : BufTy := match i % 128 with
  | 0 => ⟨S1x10, .f32⟩
  | _ => ⟨S50000x2, .f32⟩

abbrev hbmTy (i : Nat) : BufTy := match i / 128 with
  | 0 => hbmTy0_0 i
  | 1 => hbmTy0_1 i
  | _ => ⟨S50000x2, .f32⟩

abbrev bufTy : (tb : Table) → Fin (tcTables nBuf tb) → BufTy
  | .hbm, ⟨i, _⟩ => hbmTy i
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call2_cst : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v81 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  reducesTo_S50000x256_S256_d0 : S50000x256.ReducesTo [0] S256
  bcast_S_S1x256 : S_.BroadcastsInDim S1x256 (![] : Fin 0 → Fin S1x256.rank)
  bcast_S10_S1x10_1 : S10.BroadcastsInDim S1x10 (![1] : Fin 1 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x2_S2x256_S50000x256_1_0_0_1_n_n_wf : DotDims.WF S50000x2 S2x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S1x256_S256x256_S1x256_1_0_0_1_n_n_wf : DotDims.WF S1x256 S256x256 S1x256 [1] [0] [0] [1] [] []
  dot_S1x256_S256x10_S1x10_1_0_0_1_n_n_wf : DotDims.WF S1x256 S256x10 S1x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x2_S2x256_S50000x256_1_0_0_1_n_n : DotDims S50000x2 S2x256 S50000x256 where
  lhsContracting := [1]
  rhsContracting := [0]
  lhsNonContracting := [0]
  rhsNonContracting := [1]
  lhsBatch := []
  rhsBatch := []
  wf := dot_S50000x2_S2x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1x256_S256x10_S1x10_1_0_0_1_n_n : DotDims S1x256 S256x10 S1x10 where
  lhsContracting := [1]
  rhsContracting := [0]
  lhsNonContracting := [0]
  rhsNonContracting := [1]
  lhsBatch := []
  rhsBatch := []
  wf := dot_S1x256_S256x10_S1x10_1_0_0_1_n_n_wf

class Facts : Prop extends Facts₀ where

variable [Facts]
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibDenseLayer.lean ====
/-
  DENSE-LAYER STAGES AS FUNCTIONS OF WHOLE ARRAYS, element by element on the extended reals, generic in the extents:
  a plain product, a bias added to every row followed by a maximum with a constant, a bias added to every row; and
  the host operations (dot_general; two keepdims broadcasts of a vector, add, maximum with a broadcast scalar) that
  compute them. Nothing here depends on a program.

  * `prod X W`      — the plain product  [A, K] · [K, B] → [A, B]:  (r, c) ↦ Σ_k X(r, k) · W(k, c);
  * `actRow Z b z`  — the bias row b : [1, K] added to every row of Z : [A, K], then the maximum with z;
  * `act Z b z`     — the same with the bias a vector b : [K];
  * `addRowRow`, `addRow` — a row o : [1, B] (a vector o : [B]) added to every row of Y : [A, B].

  A vector cast to a one-row matrix reads its entry k at (0, k), so the row forms and the vector forms agree.
  The host's dot_general of a plain product is `prod`; two keepdims broadcasts [K] → [1, K] → [A, K] of a vector read
  its entry k at (a, k), so the host's bias-add-then-maximum is `act` and its bias add is `addRow`.
-/
import proofs.«143485_j29368986370400_2_alg».proof.Proof.LibPlainDot
import proofs.«143485_j29368986370400_2_alg».proof.Proof.LibSegSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Layer

open Idealize.ShloMosaic Idealize.ShloMosaic.ValueIdx

variable {A K B : Nat}

/-- The plain product of an [A, K] array with a [K, B] array. -/
def prod (X : (⟨2, ![A, K]⟩ : Shape).Idx → EReal) (W : (⟨2, ![K, B]⟩ : Shape).Idx → EReal) :
    (⟨2, ![A, B]⟩ : Shape).Idx → EReal :=
  fun i => ∑ k : Fin K, X (ix2 (i 0) k) * W (ix2 k (i 1))

/-- A bias ROW added to every row, then the maximum with `z`. -/
def actRow (Z : (⟨2, ![A, K]⟩ : Shape).Idx → EReal) (b : (⟨2, ![1, K]⟩ : Shape).Idx → EReal) (z : EReal) :
    (⟨2, ![A, K]⟩ : Shape).Idx → EReal :=
  fun i => max (Z i + b (ix2 (0 : Fin 1) (i 1))) z

/-- A bias VECTOR added to every row, then the maximum with `z`. -/
def act (Z : (⟨2, ![A, K]⟩ : Shape).Idx → EReal) (b : (⟨1, ![K]⟩ : Shape).Idx → EReal) (z : EReal) :
    (⟨2, ![A, K]⟩ : Shape).Idx → EReal :=
  fun i => max (Z i + b (ix1 (i 1))) z

/-- A ROW added to every row. -/
def addRowRow (Y : (⟨2, ![A, B]⟩ : Shape).Idx → EReal) (o : (⟨2, ![1, B]⟩ : Shape).Idx → EReal) :
    (⟨2, ![A, B]⟩ : Shape).Idx → EReal :=
  fun i => Y i + o (ix2 (0 : Fin 1) (i 1))

/-- A VECTOR added to every row. -/
def addRow (Y : (⟨2, ![A, B]⟩ : Shape).Idx → EReal) (o : (⟨1, ![B]⟩ : Shape).Idx → EReal) :
    (⟨2, ![A, B]⟩ : Shape).Idx → EReal :=
  fun i => Y i + o (ix1 (i 1))

/-- The row form at the vector cast to one row is the vector form. -/
theorem actRow_cast (Z : (⟨2, ![A, K]⟩ : Shape).Idx → EReal) (b : (⟨1, ![K]⟩ : Shape).Idx → EReal)
    (h : (⟨1, ![K]⟩ : Shape).ShapeCasts ⟨2, ![1, K]⟩) (z : EReal) :
    actRow Z (shapeCast ⟨2, ![1, K]⟩ b h) z = act Z b z :=
  funext fun i => by
    obtain ⟨a, k, rfl⟩ : ∃ (a : Fin A) (k : Fin K), i = ix2 a k := ⟨i 0, i 1, eq_ix2 i⟩
    show max (Z (ix2 a k) + shapeCast ⟨2, ![1, K]⟩ b h (ix2 (0 : Fin 1) k)) z = max (Z (ix2 a k) + b (ix1 k)) z
    rw [shapeCast_a_1a_apply]

theorem addRowRow_cast (Y : (⟨2, ![A, B]⟩ : Shape).Idx → EReal) (o : (⟨1, ![B]⟩ : Shape).Idx → EReal)
    (h : (⟨1, ![B]⟩ : Shape).ShapeCasts ⟨2, ![1, B]⟩) :
    addRowRow Y (shapeCast ⟨2, ![1, B]⟩ o h) = addRow Y o :=
  funext fun i => by
    obtain ⟨a, k, rfl⟩ : ∃ (a : Fin A) (k : Fin B), i = ix2 a k := ⟨i 0, i 1, eq_ix2 i⟩
    show Y (ix2 a k) + shapeCast ⟨2, ![1, B]⟩ o h (ix2 (0 : Fin 1) k) = Y (ix2 a k) + o (ix1 k)
    rw [shapeCast_a_1a_apply]

/-- The host's dot_general of a plain product (whatever record spells its dimension numbers) is `prod`. -/
theorem dotGeneral_eq_prod (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ .f32) (W : FVec Ideal ⟨2, ![K, B]⟩ .f32) :
    Host.dotGeneral d none X W = prod X W := by
  rw [Cert.Lib.PlainDot.eq_plain d h1 h2 h3 h4 h5 h6]
  exact funext fun i => Cert.Lib.PlainDot.dotGeneral_plain_apply none X W i

/-- The host's bias add (the vector broadcast to one row, the row to every row) and maximum with a broadcast
    scalar constant is `act` at that constant's value. -/
theorem hostAct_eq (Z : FVec Ideal ⟨2, ![A, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![A, K]⟩ ![0, 1])
    (z : FVec Ideal ⟨0, ![]⟩ .f32) (h0 : (⟨0, ![]⟩ : Shape).BroadcastsInDim ⟨2, ![A, K]⟩ ![]) :
    maximumf (addf Z (broadcastInDim ⟨2, ![A, K]⟩ ![0, 1] h2 (broadcastInDim ⟨2, ![1, K]⟩ ![1] h1 b)))
        (broadcastInDim ⟨2, ![A, K]⟩ ![] h0 z)
      = act Z b (z ix0) :=
  funext fun i => by
    obtain ⟨a, k, rfl⟩ : ∃ (a : Fin A) (k : Fin K), i = ix2 a k := ⟨i 0, i 1, eq_ix2 i⟩
    show max (Z (ix2 a k) + broadcastInDim ⟨2, ![A, K]⟩ ![0, 1] h2 (broadcastInDim ⟨2, ![1, K]⟩ ![1] h1 b) (ix2 a k))
        (broadcastInDim ⟨2, ![A, K]⟩ ![] h0 z (ix2 a k)) = max (Z (ix2 a k) + b (ix1 k)) (z ix0)
    have hz : broadcastInDim ⟨2, ![A, K]⟩ ![] h0 z (ix2 a k) = z ix0 :=
      broadcastInDim_apply ![] h0 z (ix2 a k) ix0 fun d => d.elim0
    rw [hz, Cert.LibSegSum.bcast_row_apply]

/-- The host's bias add of a vector to every row is `addRow`. -/
theorem hostAddRow_eq (Y : FVec Ideal ⟨2, ![A, B]⟩ .f32) (o : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf Y (broadcastInDim ⟨2, ![A, B]⟩ ![0, 1] h2 (broadcastInDim ⟨2, ![1, B]⟩ ![1] h1 o)) = addRow Y o :=
  funext fun i => by
    obtain ⟨a, k, rfl⟩ : ∃ (a : Fin A) (k : Fin B), i = ix2 a k := ⟨i 0, i 1, eq_ix2 i⟩
    show Y (ix2 a k) + broadcastInDim ⟨2, ![A, B]⟩ ![0, 1] h2 (broadcastInDim ⟨2, ![1, B]⟩ ![1] h1 o) (ix2 a k)
      = Y (ix2 a k) + o (ix1 k)
    rw [Cert.LibSegSum.bcast_row_apply]

end Cert.Layer

end
-- ==== Proof.LibRowLocal.lean ====
/-
  DENSE STAGES THAT ACT ROW BY ROW, as functions of whole arrays on the extended reals, generic in the extents.

  * `scaleRows Y s`  — row a of Y : [A, B] multiplied by the entry s(a, 0) of a column s : [A, 1];
  * `mapEntries f Y` — a function of one extended real applied to every entry.

  Three things are proved about them and about the product, the bias-then-maximum and the bias add of the dense-layer
  file (`prod`, `act`, `addRow`):

  1. the HOST's spelling is the stage: a column broadcast along the rows by `broadcast_in_dim` and multiplied;
  2. a KERNEL's spelling is the stage: a matmul into the zero accumulator is `prod`; a column cast to its own shape,
     broadcast along the rows and multiplied is `scaleRows`; a vector cast to one row, broadcast down the rows, added and
     met with a broadcast scalar is `act`, without the maximum `addRow`;
  3. each stage is ROW-LOCAL: if a block x : [a, ·] holds the rows e(0), …, e(a−1) of X : [A, ·] (and a block of the
     column the same rows of the column), then the stage of the blocks, read at (p, q), is the stage of the whole arrays
     read at (e p, q). A matrix that is not cut (the weights, the bias) is the same on both sides.

  Nothing here depends on a program.
-/
import proofs.«143485_j29368986370400_2_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RowLocal

open Idealize.ShloMosaic Idealize.ShloMosaic.ValueIdx Cert.Layer

variable {A K B : Nat}

/-- The index (a, 0) of a column. -/
abbrev col0 (a : Fin A) : (⟨2, ![A, 1]⟩ : Shape).Idx := ix2 a (⟨0, Nat.one_pos⟩ : Fin 1)

/-- Row a of Y multiplied by s(a, 0). -/
def scaleRows (Y : (⟨2, ![A, B]⟩ : Shape).Idx → EReal) (s : (⟨2, ![A, 1]⟩ : Shape).Idx → EReal) :
    (⟨2, ![A, B]⟩ : Shape).Idx → EReal :=
  fun i => Y i * s (col0 (i 0))

/-- A function of one extended real applied entry by entry. -/
def mapEntries (f : EReal → EReal) (Y : (⟨2, ![A, B]⟩ : Shape).Idx → EReal) : (⟨2, ![A, B]⟩ : Shape).Idx → EReal :=
  fun i => f (Y i)

theorem scaleRows_apply (Y : (⟨2, ![A, B]⟩ : Shape).Idx → EReal) (s : (⟨2, ![A, 1]⟩ : Shape).Idx → EReal)
    (a : Fin A) (b : Fin B) : scaleRows Y s (ix2 a b) = Y (ix2 a b) * s (col0 a) := rfl

/-! ## The host's spelling -/

/-- A column [A, 1] broadcast along the rows to [A, B], read at (a, b): the column's entry (a, 0). -/
theorem bcastCol_apply (h : (⟨2, ![A, 1]⟩ : Shape).BroadcastsInDim ⟨2, ![A, B]⟩ ![0, 1])
    (s : (⟨2, ![A, 1]⟩ : Shape).Idx → EReal) (a : Fin A) (b : Fin B) :
    broadcastInDim ⟨2, ![A, B]⟩ ![0, 1] h s (ix2 a b) = s (col0 a) := by
  refine broadcastInDim_apply ![0, 1] h s (ix2 a b) (col0 a) fun d => ?_
  match d with
  | ⟨0, _⟩ =>
    show a.val = if A = 1 then 0 else a.val
    split
    · have := a.isLt; omega
    · rfl
  | ⟨1, _⟩ => exact (if_pos rfl).symm

/-- The host's product with a column broadcast along the rows is `scaleRows`. -/
theorem hostScale_eq (Y : FVec Ideal ⟨2, ![A, B]⟩ .f32) (s : FVec Ideal ⟨2, ![A, 1]⟩ .f32)
    (h : (⟨2, ![A, 1]⟩ : Shape).BroadcastsInDim ⟨2, ![A, B]⟩ ![0, 1]) :
    mulf Y (broadcastInDim ⟨2, ![A, B]⟩ ![0, 1] h s) = scaleRows Y s :=
  funext fun i => by
    obtain ⟨a, b, rfl⟩ : ∃ (a : Fin A) (b : Fin B), i = ix2 a b := ⟨i 0, i 1, eq_ix2 i⟩
    show Y (ix2 a b) * broadcastInDim ⟨2, ![A, B]⟩ ![0, 1] h s (ix2 a b) = Y (ix2 a b) * s (col0 a)
    rw [bcastCol_apply]

/-- The host's hyperbolic tangent is the entrywise one. -/
theorem hostTanh_eq (Y : FVec Ideal ⟨2, ![A, B]⟩ .f32) : Host.tanh Y = mapEntries Ideal.tanh Y := rfl

/-! ## A kernel's spelling -/

/-- A column [A, 1] broadcast (as a vector broadcast) to [A, B], read at (a, b): the column's entry (a, 0). -/
theorem bcastToCol_apply (h : (⟨2, ![A, 1]⟩ : Shape).Broadcasts ⟨2, ![A, B]⟩)
    (s : (⟨2, ![A, 1]⟩ : Shape).Idx → EReal) (a : Fin A) (b : Fin B) :
    broadcastTo ⟨2, ![A, B]⟩ s h (ix2 a b) = s (col0 a) := by
  refine broadcastTo_apply s h (ix2 a b) (col0 a) fun d => ?_
  match d with
  | ⟨0, _⟩ =>
    show a.val = if A = 1 then 0 else a.val
    split
    · have := a.isLt; omega
    · rfl
  | ⟨1, _⟩ => exact (if_pos rfl).symm

/-- A kernel's product with a column, cast to its own shape and broadcast along the rows, is `scaleRows`. -/
theorem kernelScale_eq (Y : FVec Ideal ⟨2, ![A, B]⟩ .f32) (s : FVec Ideal ⟨2, ![A, 1]⟩ .f32)
    (hc : (⟨2, ![A, 1]⟩ : Shape).ShapeCasts ⟨2, ![A, 1]⟩) (hb : (⟨2, ![A, 1]⟩ : Shape).Broadcasts ⟨2, ![A, B]⟩) :
    mulf Y (broadcastTo ⟨2, ![A, B]⟩ (shapeCast ⟨2, ![A, 1]⟩ s hc) hb) = scaleRows Y s :=
  funext fun i => by
    obtain ⟨a, b, rfl⟩ : ∃ (a : Fin A) (b : Fin B), i = ix2 a b := ⟨i 0, i 1, eq_ix2 i⟩
    show Y (ix2 a b) * broadcastTo ⟨2, ![A, B]⟩ (shapeCast ⟨2, ![A, 1]⟩ s hc) hb (ix2 a b) = Y (ix2 a b) * s (col0 a)
    rw [bcastToCol_apply, shapeCast_self]

/-- A kernel's matmul of a plain product into the zero accumulator (whatever record spells its dimension numbers, and
    whatever formats the operands were narrowed to) is `prod`. -/
theorem kernelProd_eq {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ φ₁) (W : FVec Ideal ⟨2, ![K, B]⟩ φ₂) :
    matmul d none X W (constant ⟨2, ![A, B]⟩ .f32 0x00000000#32) = prod X W := by
  rw [Cert.Lib.PlainDot.eq_plain d h1 h2 h3 h4 h5 h6]
  exact funext fun i => Cert.Lib.PlainDot.matmul_zero_plain_apply none X W i

/-- A kernel's bias add (the vector cast to one row, the row broadcast down the rows) and maximum with a broadcast
    scalar is `act`. -/
theorem kernelAct_eq (Z : FVec Ideal ⟨2, ![A, K]⟩ .f32) (b : FVec Ideal ⟨1, ![K]⟩ .f32)
    (hc : (⟨1, ![K]⟩ : Shape).ShapeCasts ⟨2, ![1, K]⟩) (hb : (⟨2, ![1, K]⟩ : Shape).Broadcasts ⟨2, ![A, K]⟩) (z : EReal) :
    maximumf (addf Z (broadcastTo ⟨2, ![A, K]⟩ (shapeCast ⟨2, ![1, K]⟩ b hc) hb)) (broadcast ⟨2, ![A, K]⟩ z) = act Z b z :=
  funext fun i => by
    obtain ⟨a, k, rfl⟩ : ∃ (a : Fin A) (k : Fin K), i = ix2 a k := ⟨i 0, i 1, eq_ix2 i⟩
    show max (Z (ix2 a k) + broadcastTo ⟨2, ![A, K]⟩ (shapeCast ⟨2, ![1, K]⟩ b hc) hb (ix2 a k)) z
      = max (Z (ix2 a k) + b (ix1 k)) z
    rw [broadcastTo_1b_ab_apply, shapeCast_a_1a_apply]

/-- A kernel's bias add of a vector to every row is `addRow`. -/
theorem kernelAddRow_eq (Y : FVec Ideal ⟨2, ![A, B]⟩ .f32) (o : FVec Ideal ⟨1, ![B]⟩ .f32)
    (hc : (⟨1, ![B]⟩ : Shape).ShapeCasts ⟨2, ![1, B]⟩) (hb : (⟨2, ![1, B]⟩ : Shape).Broadcasts ⟨2, ![A, B]⟩) :
    addf Y (broadcastTo ⟨2, ![A, B]⟩ (shapeCast ⟨2, ![1, B]⟩ o hc) hb) = addRow Y o :=
  funext fun i => by
    obtain ⟨a, k, rfl⟩ : ∃ (a : Fin A) (k : Fin B), i = ix2 a k := ⟨i 0, i 1, eq_ix2 i⟩
    show Y (ix2 a k) + broadcastTo ⟨2, ![A, B]⟩ (shapeCast ⟨2, ![1, B]⟩ o hc) hb (ix2 a k) = Y (ix2 a k) + o (ix1 k)
    rw [broadcastTo_1b_ab_apply, shapeCast_a_1a_apply]

/-! ## Row-locality: the stage of a block of rows is that block of the stage -/

section Blocks
variable {a : Nat} (e : Fin a → Fin A)

/-- A block x : [a, C] holds the rows e(0), …, e(a−1) of X : [A, C]. -/
def RowsOf {C : Nat} (x : (⟨2, ![a, C]⟩ : Shape).Idx → EReal) (X : (⟨2, ![A, C]⟩ : Shape).Idx → EReal) : Prop :=
  ∀ (p : Fin a) (q : Fin C), x (ix2 p q) = X (ix2 (e p) q)

theorem rowsOf_prod {x : (⟨2, ![a, K]⟩ : Shape).Idx → EReal} {X : (⟨2, ![A, K]⟩ : Shape).Idx → EReal}
    (hx : RowsOf e x X) (W : (⟨2, ![K, B]⟩ : Shape).Idx → EReal) : RowsOf e (prod x W) (prod X W) :=
  fun p q => Finset.sum_congr rfl fun k _ => by
    show x (ix2 p k) * W (ix2 k q) = X (ix2 (e p) k) * W (ix2 k q)
    rw [hx p k]

theorem rowsOf_scaleRows {y : (⟨2, ![a, B]⟩ : Shape).Idx → EReal} {Y : (⟨2, ![A, B]⟩ : Shape).Idx → EReal}
    {s : (⟨2, ![a, 1]⟩ : Shape).Idx → EReal} {S : (⟨2, ![A, 1]⟩ : Shape).Idx → EReal}
    (hy : RowsOf e y Y) (hs : RowsOf e s S) : RowsOf e (scaleRows y s) (scaleRows Y S) :=
  fun p q => by
    show y (ix2 p q) * s (col0 p) = Y (ix2 (e p) q) * S (col0 (e p))
    rw [hy p q, hs p ⟨0, Nat.one_pos⟩]

theorem rowsOf_act {z' : (⟨2, ![a, K]⟩ : Shape).Idx → EReal} {Z : (⟨2, ![A, K]⟩ : Shape).Idx → EReal}
    (hz : RowsOf e z' Z) (b : (⟨1, ![K]⟩ : Shape).Idx → EReal) (z : EReal) : RowsOf e (act z' b z) (act Z b z) :=
  fun p q => by
    show max (z' (ix2 p q) + b (ix1 q)) z = max (Z (ix2 (e p) q) + b (ix1 q)) z
    rw [hz p q]

theorem rowsOf_addRow {y : (⟨2, ![a, B]⟩ : Shape).Idx → EReal} {Y : (⟨2, ![A, B]⟩ : Shape).Idx → EReal}
    (hy : RowsOf e y Y) (o : (⟨1, ![B]⟩ : Shape).Idx → EReal) : RowsOf e (addRow y o) (addRow Y o) :=
  fun p q => by
    show y (ix2 p q) + o (ix1 q) = Y (ix2 (e p) q) + o (ix1 q)
    rw [hy p q]

theorem rowsOf_mapEntries (f : EReal → EReal) {y : (⟨2, ![a, B]⟩ : Shape).Idx → EReal}
    {Y : (⟨2, ![A, B]⟩ : Shape).Idx → EReal} (hy : RowsOf e y Y) : RowsOf e (mapEntries f y) (mapEntries f Y) :=
  fun p q => congrArg f (hy p q)

end Blocks

end Cert.RowLocal

end
-- ==== Proof.LibStages.lean ====
/-
  The network's stages as functions of whole arrays on the extended reals, generic in the number of rows A and the
  lane count C. A layer normalisation of every row (mean and variance by division of the row's sum by n, the
  reciprocal square root of variance plus eps, a scale vector and a shift vector), the gated unit x ↦ x · σ(x), and
  the three things the network computes: the edge message M = GS + (EF·W + b), its gate σ(M) and gated message
  σ(M) · BHG, the edge output EF + silu(LN(M)), and the node output NF + silu(LN((NF·W + b) + NUM / (DEN + δ))).
  Each entry of a stage depends on ONE row of its row-indexed operands, so a block of rows of the operands gives
  that block of rows of the stage.
-/
import proofs.«143485_j29368986370400_2_alg».proof.Proof.LibRowLocal

noncomputable section

open scoped BigOperators

namespace Cert.Stage

open Idealize.ShloMosaic Idealize.ShloMosaic.ValueIdx Cert.Layer Cert.RowLocal

/-- An [A, C] array and a length-C vector of extended reals. -/
abbrev Arr (A C : Nat) : Type := (⟨2, ![A, C]⟩ : Shape).Idx → EReal
abbrev Vec1 (C : Nat) : Type := (⟨1, ![C]⟩ : Shape).Idx → EReal

/-- The three float constants of the network, as extended reals: the lane count 128, the normalisation's 1e-5 and the
    gate's 1e-6 (each the exact value of its binary word). -/
abbrev n128 : EReal := Ideal.ofBits .f32 0x43000000#32
abbrev eps5 : EReal := Ideal.ofBits .f32 0x3727C5AC#32
abbrev eps6 : EReal := Ideal.ofBits .f32 0x358637BD#32

variable {A C : Nat}

/-- The sum of row r. -/
def rowSum (Y : Arr A C) (r : Fin A) : EReal := ∑ k : Fin C, Y (ix2 r k)

/-- Row r's mean: its sum divided by n. -/
def rowMean (n : EReal) (Y : Arr A C) (r : Fin A) : EReal := Ideal.div (rowSum Y r) n

/-- Every entry less its row's mean. -/
def centered (n : EReal) (Y : Arr A C) : Arr A C := fun i => Y i - rowMean n Y (i 0)

/-- Row r's variance: the mean of the squared centered entries. -/
def rowVar (n : EReal) (Y : Arr A C) (r : Fin A) : EReal :=
  Ideal.div (rowSum (fun i => centered n Y i * centered n Y i) r) n

/-- Layer normalisation of every row: (y − mean) · rsqrt(var + eps) · w + b. -/
def lnRows (n eps : EReal) (Y : Arr A C) (w b : Vec1 C) : Arr A C :=
  fun i => centered n Y i * Ideal.rsqrt (rowVar n Y (i 0) + eps) * w (ix1 (i 1)) + b (ix1 (i 1))

/-- x · σ(x). -/
def silu (x : EReal) : EReal := x * Ideal.logistic x

/-- The edge message: the gathered gate sum plus the edge projection EF · W + b. -/
def edgeM (EF GS : Arr A C) (W : Arr C C) (b : Vec1 C) : Arr A C := fun i => GS i + addRow (prod EF W) b i

/-- The gate σ(M). -/
def edgeSig (EF GS : Arr A C) (W : Arr C C) (b : Vec1 C) : Arr A C := fun i => Ideal.logistic (edgeM EF GS W b i)

/-- The gated message σ(M) · BHG. -/
def edgeWt (EF GS : Arr A C) (W : Arr C C) (b : Vec1 C) (BHG : Arr A C) : Arr A C :=
  fun i => edgeSig EF GS W b i * BHG i

/-- The edge output EF + silu(LN(M)). -/
def edgeY (n eps : EReal) (EF GS : Arr A C) (W : Arr C C) (b lnw lnb : Vec1 C) : Arr A C :=
  fun i => EF i + silu (lnRows n eps (edgeM EF GS W b) lnw lnb i)

/-- The node pre-activation (NF · W + b) + NUM / (DEN + δ). -/
def nodeX (δ : EReal) (NF : Arr A C) (W : Arr C C) (b : Vec1 C) (NUM DEN : Arr A C) : Arr A C :=
  fun i => addRow (prod NF W) b i + Ideal.div (NUM i) (DEN i + δ)

/-- The node output NF + silu(LN(X)). -/
def nodeOut (n eps δ : EReal) (NF : Arr A C) (W : Arr C C) (b : Vec1 C) (NUM DEN : Arr A C) (lnw lnb : Vec1 C) : Arr A C :=
  fun i => NF i + silu (lnRows n eps (nodeX δ NF W b NUM DEN) lnw lnb i)

/-! ## Row-locality -/

variable {a : Nat} (e : Fin a → Fin A)

theorem rowSum_rows {y : Arr a C} {Y : Arr A C} (h : RowsOf e y Y) (p : Fin a) : rowSum y p = rowSum Y (e p) :=
  Finset.sum_congr rfl fun k _ => h p k

theorem rowsOf_centered (n : EReal) {y : Arr a C} {Y : Arr A C} (h : RowsOf e y Y) :
    RowsOf e (centered n y) (centered n Y) := fun p q => by
  show y (ix2 p q) - Ideal.div (rowSum y p) n = Y (ix2 (e p) q) - Ideal.div (rowSum Y (e p)) n
  rw [h p q, rowSum_rows e h p]

theorem rowVar_rows (n : EReal) {y : Arr a C} {Y : Arr A C} (h : RowsOf e y Y) (p : Fin a) :
    rowVar n y p = rowVar n Y (e p) := by
  unfold rowVar
  rw [rowSum_rows e (y := fun i => centered n y i * centered n y i) (Y := fun i => centered n Y i * centered n Y i)
    (fun p q => by
      show centered n y (ix2 p q) * centered n y (ix2 p q) = centered n Y (ix2 (e p) q) * centered n Y (ix2 (e p) q)
      rw [rowsOf_centered e n h p q]) p]

theorem rowsOf_lnRows (n eps : EReal) {y : Arr a C} {Y : Arr A C} (h : RowsOf e y Y) (w b : Vec1 C) :
    RowsOf e (lnRows n eps y w b) (lnRows n eps Y w b) := fun p q => by
  show centered n y (ix2 p q) * Ideal.rsqrt (rowVar n y p + eps) * w (ix1 q) + b (ix1 q)
    = centered n Y (ix2 (e p) q) * Ideal.rsqrt (rowVar n Y (e p) + eps) * w (ix1 q) + b (ix1 q)
  rw [rowsOf_centered e n h p q, rowVar_rows e n h p]

theorem rowsOf_edgeM {ef gs : Arr a C} {EF GS : Arr A C} (hef : RowsOf e ef EF) (hgs : RowsOf e gs GS)
    (W : Arr C C) (b : Vec1 C) : RowsOf e (edgeM ef gs W b) (edgeM EF GS W b) := fun p q => by
  show gs (ix2 p q) + addRow (prod ef W) b (ix2 p q) = GS (ix2 (e p) q) + addRow (prod EF W) b (ix2 (e p) q)
  rw [hgs p q, rowsOf_addRow e (rowsOf_prod e hef W) b p q]

theorem rowsOf_edgeSig {ef gs : Arr a C} {EF GS : Arr A C} (hef : RowsOf e ef EF) (hgs : RowsOf e gs GS)
    (W : Arr C C) (b : Vec1 C) : RowsOf e (edgeSig ef gs W b) (edgeSig EF GS W b) := fun p q => by
  show Ideal.logistic (edgeM ef gs W b (ix2 p q)) = Ideal.logistic (edgeM EF GS W b (ix2 (e p) q))
  rw [rowsOf_edgeM e hef hgs W b p q]

theorem rowsOf_edgeWt {ef gs bhg : Arr a C} {EF GS BHG : Arr A C} (hef : RowsOf e ef EF) (hgs : RowsOf e gs GS)
    (hbh : RowsOf e bhg BHG) (W : Arr C C) (b : Vec1 C) :
    RowsOf e (edgeWt ef gs W b bhg) (edgeWt EF GS W b BHG) := fun p q => by
  show edgeSig ef gs W b (ix2 p q) * bhg (ix2 p q) = edgeSig EF GS W b (ix2 (e p) q) * BHG (ix2 (e p) q)
  rw [rowsOf_edgeSig e hef hgs W b p q, hbh p q]

theorem rowsOf_edgeY (n eps : EReal) {ef gs : Arr a C} {EF GS : Arr A C} (hef : RowsOf e ef EF) (hgs : RowsOf e gs GS)
    (W : Arr C C) (b lnw lnb : Vec1 C) :
    RowsOf e (edgeY n eps ef gs W b lnw lnb) (edgeY n eps EF GS W b lnw lnb) := fun p q => by
  show ef (ix2 p q) + silu (lnRows n eps (edgeM ef gs W b) lnw lnb (ix2 p q))
    = EF (ix2 (e p) q) + silu (lnRows n eps (edgeM EF GS W b) lnw lnb (ix2 (e p) q))
  rw [hef p q, rowsOf_lnRows e n eps (rowsOf_edgeM e hef hgs W b) lnw lnb p q]

theorem rowsOf_nodeX (δ : EReal) {nf num den : Arr a C} {NF NUM DEN : Arr A C} (hnf : RowsOf e nf NF)
    (hnum : RowsOf e num NUM) (hden : RowsOf e den DEN) (W : Arr C C) (b : Vec1 C) :
    RowsOf e (nodeX δ nf W b num den) (nodeX δ NF W b NUM DEN) := fun p q => by
  show addRow (prod nf W) b (ix2 p q) + Ideal.div (num (ix2 p q)) (den (ix2 p q) + δ)
    = addRow (prod NF W) b (ix2 (e p) q) + Ideal.div (NUM (ix2 (e p) q)) (DEN (ix2 (e p) q) + δ)
  rw [rowsOf_addRow e (rowsOf_prod e hnf W) b p q, hnum p q, hden p q]

theorem rowsOf_nodeOut (n eps δ : EReal) {nf num den : Arr a C} {NF NUM DEN : Arr A C} (hnf : RowsOf e nf NF)
    (hnum : RowsOf e num NUM) (hden : RowsOf e den DEN) (W : Arr C C) (b lnw lnb : Vec1 C) :
    RowsOf e (nodeOut n eps δ nf W b num den lnw lnb) (nodeOut n eps δ NF W b NUM DEN lnw lnb) := fun p q => by
  show nf (ix2 p q) + silu (lnRows n eps (nodeX δ nf W b num den) lnw lnb (ix2 p q))
    = NF (ix2 (e p) q) + silu (lnRows n eps (nodeX δ NF W b NUM DEN) lnw lnb (ix2 (e p) q))
  rw [hnf p q, rowsOf_lnRows e n eps (rowsOf_nodeX e δ hnf hnum hden W b) lnw lnb p q]

end Cert.Stage

end
-- ==== Proof.LibHostLN.lean ====
/-
  THE HOST'S SPELLING OF THREE STAGES IS THE STAGE, at the extended reals, generic in the row count A and the lane
  count C (the gated unit and the gate at any shape). Nothing here depends on a program: every shape fact is a
  hypothesis.

  * A layer normalisation of every row written with keepdims sums: the row sum from the zero constant, seen as an
    [A, 1] column, divided by the broadcast scalar 128, spread over the lanes and subtracted; the squares of the
    differences summed and divided the same way; the broadcast scalar 1e-5 added; the reciprocal square root spread
    over the lanes and multiplied; the scale and the shift vectors broadcast [C] → [1, C] → [A, C], multiplied and
    added. This is lnRows at the values of the two constants.
  * x · (1 / (1 + exp(−x))), the ones a broadcast scalar constant, is x · σ(x).
  * 1 / (1 + exp(−x)) likewise is σ(x).

  The sum along the lanes of an [A, C] array, read at row r, is the sum over k of the entries (r, k): the source index
  over the result index (r) whose coordinate on the dropped axis is k is (r, k). The mean column read at (r, 0) is that
  sum divided by the constant's value, so the array less its spread mean column is the centered array, entry by entry;
  the variance column is the mean column of the centered array's squares.
-/
import proofs.«143485_j29368986370400_2_alg».proof.Proof.LibStages
import Idealize.ShloMosaic.Lib.IdealHost

noncomputable section

open scoped BigOperators

namespace Cert.Stage

open Idealize.ShloMosaic Idealize.ShloMosaic.ValueIdx Cert.Layer Cert.RowLocal

variable {A C : Nat}

/-! ## The sum along the lanes -/

/-- A reduction fact of the host's kind along the lanes of an [A, C] array is one of the kernel's kind: the result
    has an axis. -/
theorem reduces_of_reducesTo (hr : (⟨2, ![A, C]⟩ : Shape).ReducesTo [1] ⟨1, ![A]⟩) :
    (⟨2, ![A, C]⟩ : Shape).Reduces [1] ⟨1, ![A]⟩ :=
  hr.elim fun e hb => ⟨e, Nat.one_pos, hb⟩

/-- The source index over row r whose lane is k. -/
theorem lift_row_host (h : (⟨2, ![A, C]⟩ : Shape).Reduces [1] ⟨1, ![A]⟩) (r : Fin A) (k : Fin C) :
    h.lift (ix1 r) k = ix2 r k := by
  funext c
  refine Fin.ext ?_
  show h.liftVal (ix1 r) k.val c = (ix2 r k c).val
  unfold Shape.Reduces.liftVal
  match c with
  | ⟨0, _⟩ => rfl
  | ⟨1, _⟩ => rfl

/-- The host's sum along the lanes from the zero constant, read at row r: the row's sum. -/
theorem hostRowSum_apply (Y : FVec Ideal ⟨2, ![A, C]⟩ .f32)
    (hr : (⟨2, ![A, C]⟩ : Shape).ReducesTo [1] ⟨1, ![A]⟩) (hu : 0 < (⟨0, ![]⟩ : Shape).numel) (r : Fin A) :
    Host.reduceAdd (F := Ideal) Y (constant (F := Ideal) ⟨0, ![]⟩ .f32 0x00000000#32) hr hu (ix1 r) = rowSum Y r := by
  refine (hostReduceAdd_apply Y _ hr hu (ix1 r)).trans ?_
  refine (Ideal.hostReduceAdd_single hr (reduces_of_reducesTo hr) Y _ (ix1 r)).trans ?_
  rw [constant_apply, Ideal.ofBits_zero_f32, zero_add]
  unfold rowSum
  exact Finset.sum_congr rfl fun k _ => congrArg Y (lift_row_host _ r k)

/-- The keepdims mean of the host: the row sums as a column, divided by a broadcast scalar constant, read at (r, 0):
    row r's sum divided by the constant's value. -/
theorem hostMeanCol_apply (Y : FVec Ideal ⟨2, ![A, C]⟩ .f32) (nb : BitVec 32)
    (hr : (⟨2, ![A, C]⟩ : Shape).ReducesTo [1] ⟨1, ![A]⟩) (hu : 0 < (⟨0, ![]⟩ : Shape).numel)
    (hc : (⟨1, ![A]⟩ : Shape).BroadcastsInDim ⟨2, ![A, 1]⟩ ![0])
    (hs : (⟨0, ![]⟩ : Shape).BroadcastsInDim ⟨2, ![A, 1]⟩ ![]) (r : Fin A) :
    Host.divf (F := Ideal)
        (broadcastInDim ⟨2, ![A, 1]⟩ ![0] hc
          (Host.reduceAdd (F := Ideal) Y (constant (F := Ideal) ⟨0, ![]⟩ .f32 0x00000000#32) hr hu))
        (broadcastInDim ⟨2, ![A, 1]⟩ ![] hs (constant (F := Ideal) ⟨0, ![]⟩ .f32 nb)) (col0 r)
      = Ideal.div (rowSum Y r) (Ideal.ofBits .f32 nb) := by
  rw [hostDivf_apply, Cert.LibSegSum.bcast_unit_apply, broadcastInDim_scalar_apply, hostRowSum_apply, constant_apply]

/-! ## The layer normalisation -/

section LN

variable (Y : FVec Ideal ⟨2, ![A, C]⟩ .f32) (w b : FVec Ideal ⟨1, ![C]⟩ .f32)
  (hr : (⟨2, ![A, C]⟩ : Shape).ReducesTo [1] ⟨1, ![A]⟩) (hu : 0 < (⟨0, ![]⟩ : Shape).numel)
  (hc : (⟨1, ![A]⟩ : Shape).BroadcastsInDim ⟨2, ![A, 1]⟩ ![0])
  (hs : (⟨0, ![]⟩ : Shape).BroadcastsInDim ⟨2, ![A, 1]⟩ ![])
  (hb : (⟨2, ![A, 1]⟩ : Shape).BroadcastsInDim ⟨2, ![A, C]⟩ ![0, 1])
  (h1 : (⟨1, ![C]⟩ : Shape).BroadcastsInDim ⟨2, ![1, C]⟩ ![1])
  (h2 : (⟨2, ![1, C]⟩ : Shape).BroadcastsInDim ⟨2, ![A, C]⟩ ![0, 1])

/- The host's sub-terms, named for this section only; each name stands for the text on its right, written out in
   place wherever it is used. -/

/- The keepdims mean column of X: its row sums from zero as a column, over the broadcast scalar 128. -/
set_option quotPrecheck false in
local notation "meanCol(" X ")" =>
  Host.divf (F := Ideal)
    (broadcastInDim ⟨2, ![A, 1]⟩ ![0] hc
      (Host.reduceAdd (F := Ideal) X (constant (F := Ideal) ⟨0, ![]⟩ .f32 0x00000000#32) hr hu))
    (broadcastInDim ⟨2, ![A, 1]⟩ ![] hs (constant (F := Ideal) ⟨0, ![]⟩ .f32 0x43000000#32))

/- Y less its mean column spread over the lanes. -/
set_option quotPrecheck false in
local notation "cen" => subf Y (broadcastInDim ⟨2, ![A, C]⟩ ![0, 1] hb meanCol(Y))

/- The reciprocal square root, as a column, of the mean column of D's squares plus the broadcast scalar 1e-5. -/
set_option quotPrecheck false in
local notation "rsCol(" D ")" =>
  Host.rsqrt (F := Ideal)
    (addf meanCol(mulf D D) (broadcastInDim ⟨2, ![A, 1]⟩ ![] hs (constant (F := Ideal) ⟨0, ![]⟩ .f32 0x3727C5AC#32)))

/- A vector spread down the rows by two keepdims broadcasts. -/
set_option quotPrecheck false in
local notation "rowOf(" v ")" => broadcastInDim ⟨2, ![A, C]⟩ ![0, 1] h2 (broadcastInDim ⟨2, ![1, C]⟩ ![1] h1 v)

/-- Y less its spread mean column is the centered array. -/
theorem hostCentered_eq : cen = centered n128 Y :=
  funext fun i => by
    obtain ⟨p, q, rfl⟩ : ∃ (p : Fin A) (q : Fin C), i = ix2 p q := ⟨i 0, i 1, eq_ix2 i⟩
    show Y (ix2 p q) - broadcastInDim ⟨2, ![A, C]⟩ ![0, 1] hb meanCol(Y) (ix2 p q)
      = Y (ix2 p q) - Ideal.div (rowSum Y p) n128
    rw [bcastCol_apply, hostMeanCol_apply]

/-- The host's layer normalisation of every row is lnRows at 128 and 1e-5. -/
theorem hostLN_eq :
    addf (mulf (mulf cen (broadcastInDim ⟨2, ![A, C]⟩ ![0, 1] hb rsCol(cen))) rowOf(w)) rowOf(b)
      = lnRows n128 eps5 Y w b := by
  rw [hostCentered_eq Y hr hu hc hs hb]
  funext i
  obtain ⟨p, q, rfl⟩ : ∃ (p : Fin A) (q : Fin C), i = ix2 p q := ⟨i 0, i 1, eq_ix2 i⟩
  show centered n128 Y (ix2 p q) * broadcastInDim ⟨2, ![A, C]⟩ ![0, 1] hb rsCol(centered n128 Y) (ix2 p q)
      * rowOf(w) (ix2 p q) + rowOf(b) (ix2 p q) = lnRows n128 eps5 Y w b (ix2 p q)
  rw [bcastCol_apply, Cert.LibSegSum.bcast_row_apply, Cert.LibSegSum.bcast_row_apply]
  show centered n128 Y (ix2 p q)
        * Ideal.rsqrt (meanCol(mulf (centered n128 Y) (centered n128 Y)) (col0 p)
            + broadcastInDim ⟨2, ![A, 1]⟩ ![] hs (constant (F := Ideal) ⟨0, ![]⟩ .f32 0x3727C5AC#32) (col0 p))
        * w (ix1 q) + b (ix1 q) = lnRows n128 eps5 Y w b (ix2 p q)
  rw [hostMeanCol_apply, broadcastInDim_scalar_apply, constant_apply]
  rfl

end LN

/-! ## The gate and the gated unit, at any shape -/

/-- 1 / (1 + exp(−x)), the ones a broadcast scalar constant, is σ(x). -/
theorem hostSigmoid_eq {S : Shape} (M : FVec Ideal S .f32) (h0 : (⟨0, ![]⟩ : Shape).BroadcastsInDim S ![]) :
    Host.divf (F := Ideal) (broadcastInDim S ![] h0 (constant (F := Ideal) ⟨0, ![]⟩ .f32 0x3F800000#32))
        (addf (broadcastInDim S ![] h0 (constant (F := Ideal) ⟨0, ![]⟩ .f32 0x3F800000#32))
          (Host.exp (F := Ideal) (Host.negf (F := Ideal) M)))
      = fun i => Ideal.logistic (M i) :=
  funext fun i => by
    show Ideal.div (broadcastInDim S ![] h0 (constant (F := Ideal) ⟨0, ![]⟩ .f32 0x3F800000#32) i)
        (broadcastInDim S ![] h0 (constant (F := Ideal) ⟨0, ![]⟩ .f32 0x3F800000#32) i + Ideal.exp (-(M i)))
      = Ideal.logistic (M i)
    rw [broadcastInDim_scalar_apply, constant_apply, Ideal.ofBits_one_f32]
    rfl

/-- x · (1 / (1 + exp(−x))) is x · σ(x). -/
theorem hostSilu_eq {S : Shape} (Z : FVec Ideal S .f32) (h0 : (⟨0, ![]⟩ : Shape).BroadcastsInDim S ![]) :
    mulf Z (Host.divf (F := Ideal) (broadcastInDim S ![] h0 (constant (F := Ideal) ⟨0, ![]⟩ .f32 0x3F800000#32))
        (addf (broadcastInDim S ![] h0 (constant (F := Ideal) ⟨0, ![]⟩ .f32 0x3F800000#32))
          (Host.exp (F := Ideal) (Host.negf (F := Ideal) Z))))
      = fun i => silu (Z i) := by
  rw [hostSigmoid_eq Z h0]
  rfl

end Cert.Stage

end
-- ==== Proof.RefPool.lean ====
/-
  THE REFERENCE AFTER ITS SCATTER-ADD, in two pieces.

  * The pooled vector. With Z the aggregate (the scatter-add of the scaled gathered rows, an array [50000, 256] kept
    here as one unopened term), the reference forms H = max(Z + b, 0) row by row, normalises every row of H (mean and
    variance by a row sum divided by 256, the reciprocal square root of variance plus 1e-5, a scale vector and a shift
    vector), and sums the 50000 normalised rows from zero. Entry q of the result is therefore
        0 + Σ_n LN(H)(n, q).
    The host spells the mean column once and spreads it over the lanes twice (once for the squares, once for the
    difference that is multiplied): the two spreads are the same array, so both differences are the centered array.
  * The head. Everything the reference does with the pooled vector p — the row p · W_h + b_h, its maximum with zero,
    the row · W_out + b_out, and the log-softmax of that row (shift by the row's maximum, subtract the logarithm of
    the sum of exponentials) — is one function of p and the four head parameters, the same at every float instance.
-/
import proofs.«143485_j29368986370400_2_alg».proof.Proof.RefReadP
import proofs.«143485_j29368986370400_2_alg».proof.Proof.LibHostLN

noncomputable section

open scoped BigOperators

namespace Cert.ReferenceIdeal.Pool

open Cert.ReferenceIdeal Cert.ReferenceIdeal.Gen Cert.ReferenceIdeal.ReadP Idealize.ShloMosaic
  Idealize.ShloMosaic.ValueIdx Cert.Stage Cert.Layer Cert.RowLocal

/-- the divisor 256 as an extended real -/
abbrev n256 : EReal := Ideal.ofBits .f32 0x43800000#32

/-! ## The layer normalisation with any divisor word

  The row sums from zero as a column, divided by a broadcast scalar constant of word nb; the column spread over the
  lanes and subtracted; the squares summed and divided the same way; 1e-5 added; the reciprocal square root spread
  over the lanes and multiplied; the scale and shift vectors spread down the rows, multiplied and added: this is
  lnRows at the value of the word nb. -/

section LN

variable {A C : Nat} (nb : BitVec 32)
  (Y : FVec Ideal ⟨2, ![A, C]⟩ .f32) (w b : FVec Ideal ⟨1, ![C]⟩ .f32)
  (hr : (⟨2, ![A, C]⟩ : Shape).ReducesTo [1] ⟨1, ![A]⟩) (hu : 0 < (⟨0, ![]⟩ : Shape).numel)
  (hc : (⟨1, ![A]⟩ : Shape).BroadcastsInDim ⟨2, ![A, 1]⟩ ![0])
  (hs : (⟨0, ![]⟩ : Shape).BroadcastsInDim ⟨2, ![A, 1]⟩ ![])
  (hb : (⟨2, ![A, 1]⟩ : Shape).BroadcastsInDim ⟨2, ![A, C]⟩ ![0, 1])
  (h1 : (⟨1, ![C]⟩ : Shape).BroadcastsInDim ⟨2, ![1, C]⟩ ![1])
  (h2 : (⟨2, ![1, C]⟩ : Shape).BroadcastsInDim ⟨2, ![A, C]⟩ ![0, 1])

/-- The mean column of X: its row sums from zero as a column, over the broadcast scalar of word nb. -/
def meanColW (X : FVec Ideal ⟨2, ![A, C]⟩ .f32) : FVec Ideal ⟨2, ![A, 1]⟩ .f32 :=
  Host.divf (F := Ideal)
    (broadcastInDim ⟨2, ![A, 1]⟩ ![0] hc
      (Host.reduceAdd (F := Ideal) X (constant (F := Ideal) ⟨0, ![]⟩ .f32 0x00000000#32) hr hu))
    (broadcastInDim ⟨2, ![A, 1]⟩ ![] hs (constant (F := Ideal) ⟨0, ![]⟩ .f32 nb))

/-- The mean column read at (r, 0): row r's sum divided by the word's value. -/
theorem meanColW_apply (X : FVec Ideal ⟨2, ![A, C]⟩ .f32) (r : Fin A) :
    meanColW nb hr hu hc hs X (col0 r) = Ideal.div (rowSum X r) (Ideal.ofBits .f32 nb) :=
  hostMeanCol_apply X nb hr hu hc hs r

/-- Y less its spread mean column is the centered array. -/
theorem hostCenteredW_eq :
    subf Y (broadcastInDim ⟨2, ![A, C]⟩ ![0, 1] hb (meanColW nb hr hu hc hs Y))
      = centered (Ideal.ofBits .f32 nb) Y :=
  funext fun i => by
    obtain ⟨p, q, rfl⟩ : ∃ (p : Fin A) (q : Fin C), i = ix2 p q := ⟨i 0, i 1, eq_ix2 i⟩
    show Y (ix2 p q) - broadcastInDim ⟨2, ![A, C]⟩ ![0, 1] hb (meanColW nb hr hu hc hs Y) (ix2 p q)
      = Y (ix2 p q) - Ideal.div (rowSum Y p) (Ideal.ofBits .f32 nb)
    rw [bcastCol_apply, meanColW_apply]

/-- The host's layer normalisation of every row is lnRows at the word's value and 1e-5. -/
theorem hostLNW_eq :
    addf
        (mulf
          (mulf (subf Y (broadcastInDim ⟨2, ![A, C]⟩ ![0, 1] hb (meanColW nb hr hu hc hs Y)))
            (broadcastInDim ⟨2, ![A, C]⟩ ![0, 1] hb
              (Host.rsqrt (F := Ideal)
                (addf
                  (meanColW nb hr hu hc hs
                    (mulf (subf Y (broadcastInDim ⟨2, ![A, C]⟩ ![0, 1] hb (meanColW nb hr hu hc hs Y)))
                      (subf Y (broadcastInDim ⟨2, ![A, C]⟩ ![0, 1] hb (meanColW nb hr hu hc hs Y)))))
                  (broadcastInDim ⟨2, ![A, 1]⟩ ![] hs (constant (F := Ideal) ⟨0, ![]⟩ .f32 0x3727C5AC#32))))))
          (broadcastInDim ⟨2, ![A, C]⟩ ![0, 1] h2 (broadcastInDim ⟨2, ![1, C]⟩ ![1] h1 w)))
        (broadcastInDim ⟨2, ![A, C]⟩ ![0, 1] h2 (broadcastInDim ⟨2, ![1, C]⟩ ![1] h1 b))
      = lnRows (Ideal.ofBits .f32 nb) eps5 Y w b := by
  rw [hostCenteredW_eq nb Y hr hu hc hs hb]
  funext i
  obtain ⟨p, q, rfl⟩ : ∃ (p : Fin A) (q : Fin C), i = ix2 p q := ⟨i 0, i 1, eq_ix2 i⟩
  show centered (Ideal.ofBits .f32 nb) Y (ix2 p q)
        * broadcastInDim ⟨2, ![A, C]⟩ ![0, 1] hb
            (Host.rsqrt (F := Ideal)
              (addf
                (meanColW nb hr hu hc hs
                  (mulf (centered (Ideal.ofBits .f32 nb) Y) (centered (Ideal.ofBits .f32 nb) Y)))
                (broadcastInDim ⟨2, ![A, 1]⟩ ![] hs (constant (F := Ideal) ⟨0, ![]⟩ .f32 0x3727C5AC#32)))) (ix2 p q)
        * broadcastInDim ⟨2, ![A, C]⟩ ![0, 1] h2 (broadcastInDim ⟨2, ![1, C]⟩ ![1] h1 w) (ix2 p q)
      + broadcastInDim ⟨2, ![A, C]⟩ ![0, 1] h2 (broadcastInDim ⟨2, ![1, C]⟩ ![1] h1 b) (ix2 p q)
      = lnRows (Ideal.ofBits .f32 nb) eps5 Y w b (ix2 p q)
  rw [bcastCol_apply, Cert.LibSegSum.bcast_row_apply, Cert.LibSegSum.bcast_row_apply]
  show centered (Ideal.ofBits .f32 nb) Y (ix2 p q)
        * Ideal.rsqrt
            (meanColW nb hr hu hc hs
                (mulf (centered (Ideal.ofBits .f32 nb) Y) (centered (Ideal.ofBits .f32 nb) Y)) (col0 p)
              + broadcastInDim ⟨2, ![A, 1]⟩ ![] hs (constant (F := Ideal) ⟨0, ![]⟩ .f32 0x3727C5AC#32) (col0 p))
        * w (ix1 q) + b (ix1 q) = lnRows (Ideal.ofBits .f32 nb) eps5 Y w b (ix2 p q)
  rw [meanColW_apply, broadcastInDim_scalar_apply, constant_apply]
  rfl

end LN

/-! ## The head -/

section Head

variable {F : FTy → Type} [FloatOps F]

/-- max(p · W_h + b_h, 0) as a [1, 256] row: the pooled vector as one row, the plain product with W_h, the bias
    as one row added, the maximum with the zero constant spread over the row. -/
def hidden (p : FVec F S256 .f32) (x6 : FVec F S256x256 .f32) (x7 : FVec F S256 .f32) : FVec F S1x256 .f32 :=
  maximumf
    (addf
      (Host.dotGeneral (F := F) dot_S1x256_S256x256_S1x256_1_0_0_1_n_n none
        (broadcastInDim S1x256 ![1] bcast_S256_S1x256_1 p) x6)
      (broadcastInDim S1x256 ![1] bcast_S256_S1x256_1 x7))
    (broadcastInDim S1x256 ![] bcast_S_S1x256 (constant (F := F) S_ .f32 0x00000000#32))

/-- z · W_out + b_out as a [1, 10] row. -/
def logits (z : FVec F S1x256 .f32) (x8 : FVec F S256x10 .f32) (x9 : FVec F S10 .f32) : FVec F S1x10 .f32 :=
  addf (Host.dotGeneral (F := F) dot_S1x256_S256x10_S1x10_1_0_0_1_n_n none z x8)
    (broadcastInDim S1x10 ![1] bcast_S10_S1x10_1 x9)

/-- The row less its maximum (the maximum taken from −∞ along the row, once more against −∞, and spread back). -/
def shifted (l : FVec F S1x10 .f32) : FVec F S1x10 .f32 :=
  subf l
    (broadcastInDim S1x10 ![0, 1] bcast_S1x1_S1x10_0_1
      (broadcastInDim S1x1 ![0] bcast_S1_S1x1_0
        (maximumf (broadcastInDim S1 ![] bcast_S_S1 (constant (F := F) S_ .f32 0xFF800000#32))
          (Host.reduce (FloatOps.maximumf (F := F) (φ := .f32)) l (constant (F := F) S_ .f32 0xFF800000#32)
            reducesTo_S1x10_S1_d1 h_S_))))

/-- The log-softmax of the row: s − log Σ exp s, s the shifted row, the sum from zero along the row. -/
def logSoftmax (l : FVec F S1x10 .f32) : FVec F S1x10 .f32 :=
  subf (shifted l)
    (broadcastInDim S1x10 ![0, 1] bcast_S1x1_S1x10_0_1
      (Host.log (F := F)
        (broadcastInDim S1x1 ![0] bcast_S1_S1x1_0
          (Host.reduceAdd (F := F) (Host.exp (F := F) (shifted l)) (constant (F := F) S_ .f32 0x00000000#32)
            reducesTo_S1x10_S1_d1 h_S_))))

/-- the perceptron head and log-softmax as ONE function of the pooled vector and the four head parameters -/
def head (p : FVec F S256 .f32) (x6 : FVec F S256x256 .f32) (x7 : FVec F S256 .f32)
    (x8 : FVec F S256x10 .f32) (x9 : FVec F S10 .f32) : FVec F S1x10 .f32 :=
  logSoftmax (logits (hidden p x6 x7) x8 x9)

/-- The reference's result is the head at its pooled vector. -/
theorem result_eq (x0 : FVec F S50000x2 .f32) (x1 : IVec S2x800000 32) (x2 : FVec F S2x256 .f32)
    (x3 x4 x5 : FVec F S256 .f32) (x6 : FVec F S256x256 .f32) (x7 : FVec F S256 .f32)
    (x8 : FVec F S256x10 .f32) (x9 : FVec F S10 .f32) :
    val_main_v81 (F := F) x0 x1 x2 x3 x4 x5 x6 x7 x8 x9
      = head (val_main_v72 (F := F) x0 x1 x2 x3 x4 x5) x6 x7 x8 x9 := by
  unfold val_main_v81 val_main_call3_v10 val_main_call3_v9 val_main_call3_v8 val_main_call3_v7 val_main_call3_cst_1
    val_main_call3_v6 val_main_call3_v5 val_main_call3_v4 val_main_call3_v3 val_main_call3_v2 val_main_call3_v1
    val_main_call3_cst_0 val_main_call3_v0 val_main_call3_cst val_main_v80 val_main_v79 val_main_v78 val_main_v77
    val_main_call2_v0 val_main_call2_cst val_main_v76 val_main_v75 val_main_v74 val_main_v73
  generalize val_main_v72 (F := F) x0 x1 x2 x3 x4 x5 = p
  rfl

end Head

/-! ## The pooled vector -/

/-- The reference's bias add and maximum with zero is `act` of the aggregate. -/
theorem relu_eq (x0 : FVec Ideal S50000x2 .f32) (x1 : IVec S2x800000 32) (x2 : FVec Ideal S2x256 .f32)
    (x3 : FVec Ideal S256 .f32) :
    val_main_v47 (F := Ideal) x0 x1 x2 x3
      = act (val_main_v43 (F := Ideal) x0 x1 x2) x3 (Ideal.ofBits .f32 0x00000000#32) := by
  unfold val_main_v47 val_main_v46 val_main_v45 val_main_v44 val_main_call1_v0 val_main_call1_cst
  generalize val_main_v43 (F := Ideal) x0 x1 x2 = Z
  exact hostAct_eq Z x3 bcast_S256_S1x256_1 bcast_S1x256_S50000x256_0_1 (constant (F := Ideal) S_ .f32 0x00000000#32)
    bcast_S_S50000x256

/-- The array the reference sums over its rows is the layer normalisation of relu(aggregate + bias). -/
theorem normed_eq (x0 : FVec Ideal S50000x2 .f32) (x1 : IVec S2x800000 32) (x2 : FVec Ideal S2x256 .f32)
    (x3 x4 x5 : FVec Ideal S256 .f32) :
    val_main_v71 (F := Ideal) x0 x1 x2 x3 x4 x5
      = lnRows n256 eps5 (act (val_main_v43 (F := Ideal) x0 x1 x2) x3 (Ideal.ofBits .f32 0x00000000#32)) x4 x5 := by
  unfold val_main_v71 val_main_v70 val_main_v69 val_main_v68 val_main_v67 val_main_v66 val_main_v65 val_main_v64
    val_main_v63 val_main_v62 val_main_v61 val_main_cst_13 val_main_v60 val_main_v59 val_main_v58 val_main_v57
    val_main_cst_12 val_main_v56 val_main_v55 val_main_cst_11 val_main_v54 val_main_v53 val_main_v52 val_main_v51
    val_main_v50 val_main_cst_10 val_main_v49 val_main_v48 val_main_cst_9
  rw [relu_eq]
  generalize act (val_main_v43 (F := Ideal) x0 x1 x2) x3 (Ideal.ofBits .f32 0x00000000#32) = H
  exact hostLNW_eq 0x43800000#32 H x4 x5 reducesTo_S50000x256_S50000_d1 h_S_ bcast_S50000_S50000x1_0
    bcast_S_S50000x1 bcast_S50000x1_S50000x256_0_1 bcast_S256_S1x256_1 bcast_S1x256_S50000x256_0_1

/-- The source index of the sum over the rows, at column q and row n. -/
theorem idx_pool (q : Fin 256) (n : Fin 50000) : idx_main_v72 (ix1 q) n = ix2 n q :=
  funext fun a => Fin.ext (by match a with | ⟨0, _⟩ => rfl | ⟨1, _⟩ => rfl)

/-- the pooled vector: the sum over the 50000 rows of the layer normalisation of relu(aggregate + bias); the
    aggregate (the scatter-add) stays one unopened term -/
theorem pooled_apply (x0 : FVec Ideal S50000x2 .f32) (x1 : IVec S2x800000 32) (x2 : FVec Ideal S2x256 .f32)
    (x3 x4 x5 : FVec Ideal S256 .f32) (q : Fin 256) :
    val_main_v72 (F := Ideal) x0 x1 x2 x3 x4 x5 (ix1 q)
      = Ideal.ofBits .f32 0x00000000#32
        + ∑ n : Fin 50000,
            lnRows n256 eps5 (act (val_main_v43 (F := Ideal) x0 x1 x2) x3 (Ideal.ofBits .f32 0x00000000#32)) x4 x5
              (ix2 n q) := by
  rw [val_main_v72_apply, normed_eq]
  generalize lnRows n256 eps5 (act (val_main_v43 (F := Ideal) x0 x1 x2) x3 (Ideal.ofBits .f32 0x00000000#32)) x4 x5 = L
  refine congrArg (Ideal.ofBits .f32 0x00000000#32 + ·) (Finset.sum_congr rfl fun n _ => ?_)
  rw [idx_pool]

end Cert.ReferenceIdeal.Pool

end
-- ==== Proof.KernelRun.lean ====
/-
  The host side of the kernel's program after the region: the run
  of @main read through the host operations that follow the region — the per-core partial sums pooled into one
  vector, then the perceptron head and the log-softmax.
-/
import proofs.«143485_j29368986370400_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Run

open Cert.KernelIdeal Cert.KernelIdeal.Gen

variable {F : FTy → Type} [FloatOps F]

/-- The operations after the region up to the pooled vector: the [16,256] result read as [2,8,256], row 0 of each
    core's slab kept ([2,1,256], then [2,256]), and the two rows summed from the zero constant. -/
def pool (o : FVec F S16x256 .f32) : FVec F S256 .f32 :=
  Host.reduceAdd (F := F) (shapeCast S2x256 (extractStridedSlice S2x1x256 ![0, 0, 0] (shapeCast S2x8x256 o shapeCasts_S16x256_S2x8x256) slices_S2x8x256_S2x1x256_0_0_0) shapeCasts_S2x1x256_S2x256) (constant (F := F) S_ .f32 0x00000000#32) reducesTo_S2x256_S256_d0 h_S_

/-- max(p · W_h + b_h, 0) as a [1, 256] row: the pooled vector as one row, the plain product with W_h, the bias
    as one row added, the maximum with the zero constant spread over the row. -/
def hidden (p : FVec F S256 .f32) (x6 : FVec F S256x256 .f32) (x7 : FVec F S256 .f32) : FVec F S1x256 .f32 :=
  maximumf
    (addf
      (Host.dotGeneral (F := F) dot_S1x256_S256x256_S1x256_1_0_0_1_n_n none
        (broadcastInDim S1x256 ![1] bcast_S256_S1x256_1 p) x6)
      (broadcastInDim S1x256 ![1] bcast_S256_S1x256_1 x7))
    (broadcastInDim S1x256 ![] bcast_S_S1x256 (constant (F := F) S_ .f32 0x00000000#32))

/-- z · W_out + b_out as a [1, 10] row. -/
def logits (z : FVec F S1x256 .f32) (x8 : FVec F S256x10 .f32) (x9 : FVec F S10 .f32) : FVec F S1x10 .f32 :=
  addf (Host.dotGeneral (F := F) dot_S1x256_S256x10_S1x10_1_0_0_1_n_n none z x8)
    (broadcastInDim S1x10 ![1] bcast_S10_S1x10_1 x9)

/-- The row less its maximum (the maximum taken from −∞ along the row, once more against −∞, and spread back). -/
def shifted (l : FVec F S1x10 .f32) : FVec F S1x10 .f32 :=
  subf l
    (broadcastInDim S1x10 ![0, 1] bcast_S1x1_S1x10_0_1
      (broadcastInDim S1x1 ![0] bcast_S1_S1x1_0
        (maximumf (broadcastInDim S1 ![] bcast_S_S1 (constant (F := F) S_ .f32 0xFF800000#32))
          (Host.reduce (FloatOps.maximumf (F := F) (φ := .f32)) l (constant (F := F) S_ .f32 0xFF800000#32)
            reducesTo_S1x10_S1_d1 h_S_))))

/-- The log-softmax of the row: s − log Σ exp s, s the shifted row, the sum from zero along the row. -/
def logSoftmax (l : FVec F S1x10 .f32) : FVec F S1x10 .f32 :=
  subf (shifted l)
    (broadcastInDim S1x10 ![0, 1] bcast_S1x1_S1x10_0_1
      (Host.log (F := F)
        (broadcastInDim S1x1 ![0] bcast_S1_S1x1_0
          (Host.reduceAdd (F := F) (Host.exp (F := F) (shifted l)) (constant (F := F) S_ .f32 0x00000000#32)
            reducesTo_S1x10_S1_d1 h_S_))))

/-- The perceptron head and the log-softmax as ONE function of the pooled vector and the four head parameters. -/
def head (p : FVec F S256 .f32) (x6 : FVec F S256x256 .f32) (x7 : FVec F S256 .f32)
    (x8 : FVec F S256x10 .f32) (x9 : FVec F S10 .f32) : FVec F S1x10 .f32 :=
  logSoftmax (logits (hidden p x6 x7) x8 x9)

/-! ## The four stretches of operations after the region, each from any contents -/

/-- Running two stretches of operations one after the other is running their concatenation. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- The first stretch: the pooled region output as a row, times W_h, plus the bias row. -/
theorem stretch0 (W : Valuation τ sig (Elt F)) :
    StableHlo.after (hostOps1 (F := F)) W (Proc.devRef .tc main_v51)
      = addf
          (Host.dotGeneral (F := F) dot_S1x256_S256x256_S1x256_1_0_0_1_n_n none
            (broadcastInDim S1x256 ![1] bcast_S256_S1x256_1 (pool (W (Proc.devRef .tc main_v43)))) (W (Proc.devRef .tc main_arg6)))
          (broadcastInDim S1x256 ![1] bcast_S256_S1x256_1 (W (Proc.devRef .tc main_arg7))) := by
  simp only [hostOps1]
  after_results
  rfl
/-- It leaves the output layer's parameters as they were. -/
theorem stretch0_arg8 (W : Valuation τ sig (Elt F)) :
    StableHlo.after (hostOps1 (F := F)) W (Proc.devRef .tc main_arg8) = W (Proc.devRef .tc main_arg8) := by
  simp only [hostOps1]
  after_results
theorem stretch0_arg9 (W : Valuation τ sig (Elt F)) :
    StableHlo.after (hostOps1 (F := F)) W (Proc.devRef .tc main_arg9) = W (Proc.devRef .tc main_arg9) := by
  simp only [hostOps1]
  after_results

/-- The second stretch: the maximum with the zero row. -/
theorem stretch1 (W : Valuation τ sig (Elt F)) :
    StableHlo.after (hostOps1_1 (F := F)) W (Proc.devRef .tc main_v52)
      = maximumf (W (Proc.devRef .tc main_v51)) (broadcastInDim S1x256 ![] bcast_S_S1x256 (constant (F := F) S_ .f32 0x00000000#32)) := by
  simp only [hostOps1_1]
  after_results
  rfl
/-- It leaves the output layer's parameters as they were. -/
theorem stretch1_arg8 (W : Valuation τ sig (Elt F)) :
    StableHlo.after (hostOps1_1 (F := F)) W (Proc.devRef .tc main_arg8) = W (Proc.devRef .tc main_arg8) := by
  simp only [hostOps1_1]
  after_results
theorem stretch1_arg9 (W : Valuation τ sig (Elt F)) :
    StableHlo.after (hostOps1_1 (F := F)) W (Proc.devRef .tc main_arg9) = W (Proc.devRef .tc main_arg9) := by
  simp only [hostOps1_1]
  after_results

/-- The third stretch: the output layer. -/
theorem stretch2 (W : Valuation τ sig (Elt F)) :
    StableHlo.after (hostOps1_2 (F := F)) W (Proc.devRef .tc main_v55)
      = logits (W (Proc.devRef .tc main_v52)) (W (Proc.devRef .tc main_arg8)) (W (Proc.devRef .tc main_arg9)) := by
  simp only [hostOps1_2]
  after_results
  rfl

/-- The fourth stretch: the log-softmax's fifteen operations. -/
theorem stretch3 (W : Valuation τ sig (Elt F)) :
    StableHlo.after (hostOps1_3 (F := F)) W (Proc.devRef .tc main_v56) = logSoftmax (W (Proc.devRef .tc main_v55)) := by
  simp only [hostOps1_3]
  after_results
  rfl

/-! ## The run -/

variable (m : (ℓ : Loc nD τ sig) → Buf (Elt F) ℓ) (ρ : Dev nD → PrngReg)

/-- What the host operations after the region leave in the result buffer: the head of the pooled region output,
    the region's array being the one the pipeline wrote and the parameters untouched since the launch. -/
theorem tail_eq (c : Dev nD) :
    Pipeline.afterTail₀ cfgs (dats m) 0 (V0 m) [hostOps1, hostOps1_1, hostOps1_2, hostOps1_3] c main_v56
      = head (pool ((dats m 0 c).arrAt 5 cfg0.N)) (m ((c.tc : Thread nD τ).loc main_arg6)) (m ((c.tc : Thread nD τ).loc main_arg7))
          (m ((c.tc : Thread nD τ).loc main_arg8)) (m ((c.tc : Thread nD τ).loc main_arg9)) := by
  have h43 : Pipeline.withArrays spec0 c (V0 m c) (fun w => (dats m 0 c).arrAt w cfg0.N) (Proc.devRef .tc main_v43)
      = (dats m 0 c).arrAt 5 cfg0.N := Pipeline.withArrays_arr spec0 launch0.win.arr_inj c _ _ 5
  have h6 : Pipeline.withArrays spec0 c (V0 m c) (fun w => (dats m 0 c).arrAt w cfg0.N) (Proc.devRef .tc main_arg6)
      = m ((c.tc : Thread nD τ).loc main_arg6) :=
    (Pipeline.withArrays_of_ne _ c (V0 m c) _ main_arg6 (by exact (by decide : ∀ w, Pipeline.arrRef spec0 w ≠ main_arg6))).trans (V_main_arg6 m c)
  have h7 : Pipeline.withArrays spec0 c (V0 m c) (fun w => (dats m 0 c).arrAt w cfg0.N) (Proc.devRef .tc main_arg7)
      = m ((c.tc : Thread nD τ).loc main_arg7) :=
    (Pipeline.withArrays_of_ne _ c (V0 m c) _ main_arg7 (by exact (by decide : ∀ w, Pipeline.arrRef spec0 w ≠ main_arg7))).trans (V_main_arg7 m c)
  have h8 : Pipeline.withArrays spec0 c (V0 m c) (fun w => (dats m 0 c).arrAt w cfg0.N) (Proc.devRef .tc main_arg8)
      = m ((c.tc : Thread nD τ).loc main_arg8) :=
    (Pipeline.withArrays_of_ne _ c (V0 m c) _ main_arg8 (by exact (by decide : ∀ w, Pipeline.arrRef spec0 w ≠ main_arg8))).trans (V_main_arg8 m c)
  have h9 : Pipeline.withArrays spec0 c (V0 m c) (fun w => (dats m 0 c).arrAt w cfg0.N) (Proc.devRef .tc main_arg9)
      = m ((c.tc : Thread nD τ).loc main_arg9) :=
    (Pipeline.withArrays_of_ne _ c (V0 m c) _ main_arg9 (by exact (by decide : ∀ w, Pipeline.arrRef spec0 w ≠ main_arg9))).trans (V_main_arg9 m c)
  unfold Pipeline.afterTail₀
  generalize Pipeline.withArrays spec0 c (V0 m c) (fun w => (dats m 0 c).arrAt w cfg0.N) = W at h43 h6 h7 h8 h9 ⊢
  simp only [List.flatten_cons, List.flatten_nil, List.append_nil]
  rw [after_append, after_append, after_append, stretch3, stretch2, stretch1, stretch1_arg8, stretch1_arg9, stretch0,
    stretch0_arg8, stretch0_arg9, h43, h6, h7, h8, h9]
  rfl

/-- The run, read: the result buffer at the head of the pooled region output, the ten arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v56) = head (pool ((dats m 0 c).arrAt 5 cfg0.N)) (m ((c.tc : Thread nD τ).loc main_arg6))
          (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v56 (Pipeline.mem_restRefs_of main_v56 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

open Idealize.ShloMosaic.ValueIdx in
/-- At the extended reals the pooled vector at lane `q` is the zero constant plus the sum over the two cores of row 0
    of each core's slab (row `8 * core` of the [16,256] region output). -/
theorem pool_apply (o : FVec Ideal S16x256 .f32) (q : Fin 256) :
    pool (F := Ideal) o (ValueIdx.ix1 q) = Ideal.ofBits .f32 0x00000000#32 + ∑ core : Fin 2, o (ValueIdx.ix2 (⟨8 * core.val, by have := core.isLt; omega⟩ : Fin 16) q) := by
  have hR : S2x256.Reduces [0] S256 := by decide
  unfold pool
  refine (Ideal.hostReduceAdd_single reducesTo_S2x256_S256_d0 hR _ _ _).trans ?_
  show Ideal.ofBits .f32 0x00000000#32 + ∑ k : Fin 2, _ = _
  congr 1
  refine Finset.sum_congr rfl fun k _ => ?_
  have hl : hR.lift (ValueIdx.ix1 q) k = (ValueIdx.ix2 k q : S2x256.Idx) := by
    funext a
    match a with
    | ⟨0, _⟩ => rfl
    | ⟨1, _⟩ => rfl
  rw [hl]
  refine (shapeCast_apply _ shapeCasts_S2x1x256_S2x256 (ValueIdx.ix2 k q) (ValueIdx.ix3 k (0 : Fin 1) q) (by
    rw [Shape.rowMajor_val_three, Shape.rowMajor_val_two]
    show (k.val * 1 + 0) * 256 + q.val = k.val * 256 + q.val
    omega)).trans ?_
  refine (ValueIdx.slice3_axis1_apply 0 _ slices_S2x8x256_S2x1x256_0_0_0 k (0 : Fin 1) q (0 : Fin 8) rfl).trans ?_
  exact shapeCast_apply o shapeCasts_S16x256_S2x8x256 (ValueIdx.ix3 k (0 : Fin 8) q) (ValueIdx.ix2 (⟨8 * k.val, by have := k.isLt; omega⟩ : Fin 16) q) (by
    rw [Shape.rowMajor_val_three, Shape.rowMajor_val_two]
    show (8 * k.val) * 256 + q.val = (k.val * 8 + 0) * 256 + q.val
    omega)

end Cert.KernelIdeal.Run

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.FiniteArgs.lean ====
/-
  The precondition read back: the node features and the first weight matrix hold real numbers.

  The precondition is the conjunction, over the nine float arguments, of all(|x| < +inf). If it holds, each conjunct
  holds, and every entry of that argument is a real number (neither +∞ nor −∞).
-/
import proofs.«143485_j29368986370400_2_alg».proof.Pre_finite_inputs
import proofs.«143485_j29368986370400_2_alg».proof.Proof.LibFinite
import Idealize.ShloMosaic.Lib.Affine

noncomputable section

namespace Cert.FiniteArgs

open Idealize.ShloMosaic Idealize.ShloMosaic.ValueIdx Cert.Pre_finite_inputs

variable [Cert.Pre_finite_inputs.Facts]

/-- Under the precondition every entry of the node features and of the first weight matrix is real. -/
theorem real_args (x0 : FVec Ideal S50000x2 .f32) (x1 : IVec S2x800000 32) (x2 : FVec Ideal S2x256 .f32)
    (x3 x4 x5 : FVec Ideal S256 .f32) (x6 : FVec Ideal S256x256 .f32) (x7 : FVec Ideal S256 .f32)
    (x8 : FVec Ideal S256x10 .f32) (x9 : FVec Ideal S10 .f32)
    (h : fn (F := Ideal) x0 x1 x2 x3 x4 x5 x6 x7 x8 x9 = fun _ => 1#1) :
    (∀ i, ∃ r : ℝ, x0 i = (r : EReal)) ∧ (∀ i, ∃ r : ℝ, x2 i = (r : EReal)) := by
  have h0 := congrFun h ix0
  dsimp only [fn, fn_part1, fn_part2, andi] at h0
  simp only [IntOp.andi_eq_one] at h0
  obtain ⟨⟨⟨⟨⟨⟨⟨⟨a0, a2⟩, -⟩, -⟩, -⟩, -⟩, -⟩, -⟩, -⟩ := h0
  exact ⟨Cert.LibFinite.real_of_all x0 _ _ _ ix0 a0, Cert.LibFinite.real_of_all x2 _ _ _ ix0 a2⟩

end Cert.FiniteArgs

end
-- ==== Proof.KernelAcc.lean ====
/-
  Row 0 of each core's output block, read as a value.

  The grid has ten points, five per core. At each point the body computes the column sums of the staged tile (a
  [256] vector) and adds them into row 0 of the core's [8,256] output block; at the first point of a core the block
  is first filled with zeros. The block is carried in place over the core's five points and written back to rows
  8*core .. 8*core+7 of the [16,256] result array after the last of them.

  Hence, for every lane q, row 0 of the block after point n is the running sum
      0 + s(5k) + s(5k+1) + ... + s(n),   k = n / 5,
  of the column sums s(t) of the tiles of that core so far (`acc`), and row 8*core of the result array is that sum
  after point 5*core + 4 (`final_row`). All statements are entrywise, over the extended reals.
-/
import proofs.«143485_j29368986370400_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic Idealize.ShloMosaic.ValueIdx

/-- Zero offsets on two axes, as the stores spell them. -/
theorem hz2 : (![0, 0] : Fin 2 → Nat) = fun _ => 0 := funext fun a => by fin_cases a <;> rfl

/-- Zero offset on one axis. -/
theorem hz1 : (![0] : Fin 1 → Nat) = fun _ => 0 := funext fun a => by fin_cases a; rfl

/-- Entry (0, q) of the [8,256] block is entry (0, q) of its first row, the [1,256] rectangle at offset zero. -/
theorem emb_row0 (inb : ∀ a, (![0, 0] : Fin 2 → Nat) a + (![1, 256] : Fin 2 → Nat) a ≤ S8x256.size a) (q : Fin 256) :
    (Rect.unit (s := S8x256) ![0, 0] ![1, 256] inb).emb (ix2 (0 : Fin 1) q) = ix2 (0 : Fin 8) q := by
  funext a
  apply Fin.ext
  match a with
  | ⟨0, _⟩ => show 0 + 1 * 0 = 0; rfl
  | ⟨1, _⟩ => show 0 + 1 * q.val = q.val; omega

/-- The row update's payload at (0, q): the row as loaded plus the column sum, entry by entry
    (the [256] vector of column sums is viewed as one row). -/
theorem pay1_apply (v39 : FVec Ideal S256 .f32) (v41 : Vec Ideal S1x256 .f32) (q : Fin 256) :
    k0_pay1 v39 v41 (ix2 (0 : Fin 1) q) = v41 (ix2 (0 : Fin 1) q) + v39 (ix1 q) := by
  unfold k0_pay1
  show addf (shapeCast S1x256 v41 shapeCasts_S1x256_S1x256) (shapeCast S1x256 v39 shapeCasts_S256_S1x256) (ix2 (0 : Fin 1) q) = _
  rw [addf_apply, shapeCast_self, shapeCast_a_1a_apply]

/-- FIRST POINT OF A CORE: the block is filled with zeros, row 0 is read back (zeros) and the tile's column sums are
    added to it, so row 0 ends at 0 + (column sum). -/
theorem out_A_row0 (c : Dev nD) (i : grid0.Coords) (a2 : Memref sig .tc .vmem S5000x2 .f32) (h2 : a2.IsWhole) (a3 : Memref sig .tc .vmem S2x256 .f32) (h3 : a3.IsWhole) (a4 : Memref sig .tc .vmem S256 .f32) (h4 : a4.IsWhole) (a5 : Memref sig .tc .vmem S256 .f32) (h5 : a5.IsWhole) (a6 : Memref sig .tc .vmem S256 .f32) (h6 : a6.IsWhole) (a7 : Memref sig .tc .vmem S8x256 .f32) (h7 : a7.IsWhole) (hc0 : cond0_0 i)
    (x0 : Vec Ideal S5000x2 .f32) (x1 : Vec Ideal S2x256 .f32) (x2 x3 x4 : Vec Ideal S256 .f32) (q : Fin 256) :
    out0_A_5 (F := Ideal) c i a2 h2 a3 h3 a4 h4 a5 h5 a6 h6 a7 h7 hc0 x0 x1 x2 x3 x4 (ix2 (0 : Fin 8) q)
      = Ideal.ofBits .f32 0x00000000#32 + k0_pay3 x0 x1 x2 x3 x4 (ix1 q) := by
  unfold out0_A_5
  rw [View.read_writes_junk_eq_canon]
  unfold kernelRun0_A
  dsimp only
  sl_unfold_words
  rw [← emb_row0 inb_S8x256_S1x256_0_0 q, View.canon_cons_emb, pay1_apply]
  simp only [View.readAt_eq_ld, h2.read_unread, h3.read_unread, h4.read_unread, h5.read_unread, h6.read_unread,
    View.ld_unit_zero (S := S5000x2) hz2, View.ld_unit_zero (S := S2x256) hz2, View.ld_unit_zero (S := S256) hz1]
  rw [View.readCov_eq_canon', View.canon_cons_unit_zero (S := S8x256) hz2]
  rfl

/-- LATER POINTS OF A CORE: nothing is reset; row 0 of what the point before left is loaded, the tile's column sums
    are added to it and stored back, so row 0 ends at (row 0 before) + (column sum). The other seven rows keep what
    they held: the one store covers row 0 only. -/
theorem out_B_row0 (c : Dev nD) (i : grid0.Coords) (a2 : Memref sig .tc .vmem S5000x2 .f32) (h2 : a2.IsWhole) (a3 : Memref sig .tc .vmem S2x256 .f32) (h3 : a3.IsWhole) (a4 : Memref sig .tc .vmem S256 .f32) (h4 : a4.IsWhole) (a5 : Memref sig .tc .vmem S256 .f32) (h5 : a5.IsWhole) (a6 : Memref sig .tc .vmem S256 .f32) (h6 : a6.IsWhole) (a7 : Memref sig .tc .vmem S8x256 .f32) (h7 : a7.IsWhole) (hc0 : ¬cond0_0 i)
    (x0 : Vec Ideal S5000x2 .f32) (x1 : Vec Ideal S2x256 .f32) (x2 x3 x4 : Vec Ideal S256 .f32) (xo5 : Vec Ideal S8x256 .f32) (q : Fin 256) :
    out0_B_5 (F := Ideal) c i a2 h2 a3 h3 a4 h4 a5 h5 a6 h6 a7 h7 hc0 x0 x1 x2 x3 x4 xo5 (ix2 (0 : Fin 8) q)
      = xo5 (ix2 (0 : Fin 8) q) + k0_pay3 x0 x1 x2 x3 x4 (ix1 q) := by
  unfold out0_B_5
  unfold kernelRun0_B
  dsimp only
  sl_unfold_words
  rw [← emb_row0 inb_S8x256_S1x256_0_0 q, View.read_writes_cons_emb, pay1_apply]
  simp only [View.readAt_eq_ld, h2.read_unread, h3.read_unread, h4.read_unread, h5.read_unread, h6.read_unread, h7.read_unread,
    View.ld_unit_zero (S := S5000x2) hz2, View.ld_unit_zero (S := S2x256) hz2, View.ld_unit_zero (S := S256) hz1]
  rfl

variable (m : (ℓ : Loc nD τ sig) → Buf (Elt Ideal) ℓ)

/-- the column sums of the tile staged at point t -/
def tile (c : Dev nD) (t : Fin cfg0.N) : FVec Ideal S256 .f32 :=
  k0_pay3 (iblk m c 0 t) (iblk m c 1 t) (iblk m c 2 t) (iblk m c 3 t) (iblk m c 4 t)

/-- row 0 of the output block after point n: the running sum of the core's tiles so far, restarted at the first point
    of each core -/
def acc (c : Dev nD) : (n : ℕ) → n < cfg0.N → Fin 256 → EReal
  | 0, h, q => Ideal.ofBits .f32 0x00000000#32 + tile m c ⟨0, h⟩ (ix1 q)
  | n + 1, h, q => if (n + 1) % 5 = 0 then Ideal.ofBits .f32 0x00000000#32 + tile m c ⟨n + 1, h⟩ (ix1 q)
                   else acc c n (Nat.lt_of_succ_lt h) q + tile m c ⟨n + 1, h⟩ (ix1 q)

/-- The running sum at the very first point. -/
theorem acc_zero (c : Dev nD) (h : 0 < cfg0.N) (q : Fin 256) :
    acc m c 0 h q = Ideal.ofBits .f32 0x00000000#32 + tile m c ⟨0, h⟩ (ix1 q) := rfl

/-- The running sum restarts at a multiple of five. -/
theorem acc_reset (c : Dev nD) (n : ℕ) (h : n + 1 < cfg0.N) (q : Fin 256) (h0 : (n + 1) % 5 = 0) :
    acc m c (n + 1) h q = Ideal.ofBits .f32 0x00000000#32 + tile m c ⟨n + 1, h⟩ (ix1 q) := by
  rw [acc]; exact if_pos h0

/-- Elsewhere it grows by the point's tile. -/
theorem acc_step (c : Dev nD) (n : ℕ) (h : n + 1 < cfg0.N) (q : Fin 256) (h0 : ¬(n + 1) % 5 = 0) :
    acc m c (n + 1) h q = acc m c n (Nat.lt_of_succ_lt h) q + tile m c ⟨n + 1, h⟩ (ix1 q) := by
  rw [acc]; exact if_neg h0

/-- Row 0 of the staging block after point n IS the running sum: by induction on the point, the two control cases
    read by the two lemmas above. -/
theorem outsAt_row0 (c : Dev nD) : ∀ (n : ℕ) (h : n < cfg0.N) (q : Fin 256),
    outsAt0 m c n h (ix2 (0 : Fin 8) q) = acc m c n h q
  | 0, h, q =>
    (congrFun (outsAt0_A m c ⟨0, h⟩ (Nat.zero_mod 5)) (ix2 (0 : Fin 8) q)).trans
      (out_A_row0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr (Nat.zero_mod 5)) (iblk m c 0 ⟨0, h⟩) (iblk m c 1 ⟨0, h⟩) (iblk m c 2 ⟨0, h⟩) (iblk m c 3 ⟨0, h⟩) (iblk m c 4 ⟨0, h⟩) q)
  | n + 1, h, q => by
    by_cases h0 : (n + 1) % 5 = 0
    · rw [acc_reset m c n h q h0]
      exact (congrFun (outsAt0_A m c ⟨n + 1, h⟩ h0) (ix2 (0 : Fin 8) q)).trans
        (out_A_row0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) q)
    · rw [acc_step m c n h q h0]
      refine (congrFun (outsAt0_B m c ⟨n + 1, h⟩ h0) (ix2 (0 : Fin 8) q)).trans ?_
      refine (out_B_row0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩)
        (outsAt0 m c ((⟨n + 1, h⟩ : Fin cfg0.N).val - 1) (Nat.lt_of_le_of_lt (Nat.sub_le _ _) (⟨n + 1, h⟩ : Fin cfg0.N).isLt)) q).trans ?_
      show outsAt0 m c n (Nat.lt_of_succ_lt h) (ix2 (0 : Fin 8) q) + tile m c ⟨n + 1, h⟩ (ix1 q)
        = acc m c n (Nat.lt_of_succ_lt h) q + tile m c ⟨n + 1, h⟩ (ix1 q)
      rw [outsAt_row0 c n (Nat.lt_of_succ_lt h) q]

/-- The block is written back only after the last point of each core: points 4 and 9. -/
theorem flush_pts (t : Fin cfg0.N) (hf : (cfg0.win 5).flush t = true) : t = t0_4 ∨ t = t0_9 := by
  have h4 : t.val % 5 = 4 := (flush0_5 t).mp hf
  have hN : t.val < 10 := lt_of_lt_of_eq t.isLt (show cfg0.N = 10 from N_0)
  rcases (show t.val = 4 ∨ t.val = 9 by omega) with e | e
  · exact .inl (Fin.ext e)
  · exact .inr (Fin.ext e)

/-- The two blocks written back are rows 0..7 and rows 8..15 of the result array: disjoint. -/
theorem flush_disjoint (t t' : Fin cfg0.N) (hf : (cfg0.win 5).flush t = true) (hf' : (cfg0.win 5).flush t' = true)
    (hne : t ≠ t') : Disjoint ((cfg0.win 5).blk t).view.set ((cfg0.win 5).blk t').view.set := by
  rcases flush_pts t hf with rfl | rfl <;> rcases flush_pts t' hf' with rfl | rfl
  · exact absurd rfl hne
  · show Disjoint ((View.whole main_v43).slice (win0_5.rect t0_4)).set ((View.whole main_v43).slice (win0_5.rect t0_9)).set
    rw [View.set_slice_whole, View.set_slice_whole]
    exact Rect.unit_disjoint 0 (Or.inl (by decide +kernel))
  · show Disjoint ((View.whole main_v43).slice (win0_5.rect t0_9)).set ((View.whole main_v43).slice (win0_5.rect t0_4)).set
    rw [View.set_slice_whole, View.set_slice_whole]
    exact Rect.unit_disjoint 0 (Or.inr (by decide +kernel))
  · exact absurd rfl hne

/-- An entry of the result array under the block written back at point t holds what the staging block held after
    that point: no other write-back touches it, and the window is not cut at the array's end. -/
theorem final_at (c : Dev nD) (t : Fin cfg0.N) (hf : (cfg0.win 5).flush t = true) (y : S8x256.Idx) :
    (dats m 0 c).arrAt 5 cfg0.N (((cfg0.win 5).blk t).view.emb y) = outsAt0 m c t.val t.isLt y := by
  refine ((dats m 0 c).arrAt_emb_eq_flushed 5 flush_disjoint t hf y).trans ?_
  show (cfg0.win 5).cut (grid0.coords t) ((dats m 0 c).after 5 t) y = _
  rw [after0_5]
  exact congrArg (outsAt0 m c t.val t.isLt) (funext fun a => Fin.ext rfl)

/-- Row r of the result array, when r is the first row of the block written back at point t, is the running sum
    after t. -/
theorem final_of_pt (c : Dev nD) (t : Fin cfg0.N) (hf : t.val % 5 = 4) (r : Fin 16) (q : Fin 256)
    (hr : win0_5.index t 0 * win0_5.size 0 = r.val) (h1 : win0_5.index t 1 * win0_5.size 1 = 0) :
    (dats m 0 c).arrAt 5 cfg0.N (ix2 r q) = acc m c t.val t.isLt q := by
  have e : ((cfg0.win 5).blk t).view.emb (ix2 (0 : Fin 8) q) = ix2 r q := by
    funext a
    apply Fin.ext
    match a with
    | ⟨0, _⟩ => exact (win0_5.rect_emb_val t (ix2 (0 : Fin 8) q) 0).trans (by rw [hr]; rfl)
    | ⟨1, _⟩ => exact (win0_5.rect_emb_val t (ix2 (0 : Fin 8) q) 1).trans (by rw [h1]; show 0 + q.val = q.val; omega)
  rw [← e, final_at m c t ((flush0_5 t).mpr hf), outsAt_row0]

/-- the region's result array f32[16,256], read at row 8*core: row 0 of core's block after its last point
    (t = 5*core + 4) -/
theorem final_row (c : Dev nD) (core : Fin 2) (q : Fin 256) :
    (dats m 0 c).arrAt 5 cfg0.N (ix2 (⟨8 * core.val, by have := core.isLt; omega⟩ : Fin 16) q)
      = acc m c (5 * core.val + 4) (by rw [show cfg0.N = 10 from N_0]; have := core.isLt; omega) q :=
  match core with
  | ⟨0, _⟩ => final_of_pt m c t0_4 (by decide) ⟨0, by decide⟩ q (by decide +kernel) (by decide +kernel)
  | ⟨1, _⟩ => final_of_pt m c t0_9 (by decide) ⟨8, by decide⟩ q (by decide +kernel) (by decide +kernel)

end Cert.KernelIdeal.Acc
end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibKernelLN.lean ====
/-
  A KERNEL'S SPELLING OF A ROW-WISE LAYER NORMALISATION IS THE STAGE, generic in the row count a and the lane count c.

  A kernel takes a row's mean as a lane sum (a reduction of axis 1 from the zero word) seen as an [a, 1] column and
  divided by a broadcast scalar n; it spreads that column back over the c lanes and subtracts; the variance is the same
  lane mean of the squared differences, and the reciprocal square root of variance plus eps is again an [a, 1] column
  spread over the lanes; the scale and the shift are vectors seen as one row and spread down the rows. Read at (p, q):

  * the lane sum at row p is the sum over k of Y(p, k)                      (`laneSum_apply`);
  * the mean column at (p, 0) is the row's mean                             (`kMeanCol_apply`);
  * the difference is `centered`                                            (`kCentered_eq`);
  * the reciprocal-root column at (p, 0) is rsqrt(var(p) + eps)             (`kRstdCol_apply`);
  * the whole spelling is `lnRows`                                          (`kLN_eq`);
  * x0 + L · σ(L) entry by entry is x0 + silu(L)                            (`kSiluRes_apply`).

  Nothing here depends on a program.
-/
import proofs.«143485_j29368986370400_2_alg».proof.Proof.LibStages
import proofs.«143485_j29368986370400_2_alg».proof.Proof.LibKeepdims

noncomputable section

open scoped BigOperators

namespace Cert.Stage

open Idealize.ShloMosaic Idealize.ShloMosaic.ValueIdx Cert.Layer Cert.RowLocal

variable {a c : Nat}

/-- Over the row index (r), the index with lane k put back on axis 1 is (r, k). -/
theorem lift_row (h : (⟨2, ![a, c]⟩ : Shape).Reduces [1] ⟨1, ![a]⟩) (r : Fin a) (k : Fin c) :
    h.lift (ix1 r) k = ix2 r k := by
  funext d
  apply Fin.ext
  match d with
  | ⟨0, _⟩ => rfl
  | ⟨1, _⟩ => rfl

/-- A kernel's lane sum (the reduction of axis 1 from the zero word) at row r is the sum of row r. -/
theorem laneSum_apply (Y : FVec Ideal ⟨2, ![a, c]⟩ .f32) (h : (⟨2, ![a, c]⟩ : Shape).Reduces [1] ⟨1, ![a]⟩)
    (hφ : FKind.Formats .f32) (hacc : (0x00000000#32 : BitVec 32) = FKind.add.neutral .f32 hφ) (r : Fin a) :
    multiReduction .add [1] ⟨1, ![a]⟩ Y 0x00000000#32 h hφ hacc (ix1 r) = rowSum Y r :=
  (Ideal.multiReduction_add_single Y _ h hφ hacc (ix1 r)).trans
    (Finset.sum_congr rfl fun k _ => congrArg Y (lift_row h r k))

section Spelling
variable (n eps : Ideal .f32) (Y : FVec Ideal ⟨2, ![a, c]⟩ .f32)
  (hr : (⟨2, ![a, c]⟩ : Shape).Reduces [1] ⟨1, ![a]⟩) (hφ : FKind.Formats .f32)
  (hacc : (0x00000000#32 : BitVec 32) = FKind.add.neutral .f32 hφ)
  (hc : (⟨1, ![a]⟩ : Shape).ShapeCasts ⟨2, ![a, 1]⟩) (hb : (⟨2, ![a, 1]⟩ : Shape).Broadcasts ⟨2, ![a, c]⟩)

/-- The column of lane means of Z: the lane sum seen as a column, divided by the broadcast scalar n. -/
def kLaneMeanCol (Z : FVec Ideal ⟨2, ![a, c]⟩ .f32) : FVec Ideal ⟨2, ![a, 1]⟩ .f32 :=
  divf (shapeCast ⟨2, ![a, 1]⟩ (multiReduction .add [1] ⟨1, ![a]⟩ Z 0x00000000#32 hr hφ hacc) hc)
    (broadcast ⟨2, ![a, 1]⟩ n)

theorem kLaneMeanCol_apply (Z : FVec Ideal ⟨2, ![a, c]⟩ .f32) (p : Fin a) (u : Fin 1) :
    kLaneMeanCol n hr hφ hacc hc Z (ix2 p u) = Ideal.div (rowSum Z p) n := by
  show Ideal.div (shapeCast ⟨2, ![a, 1]⟩ (multiReduction .add [1] ⟨1, ![a]⟩ Z 0x00000000#32 hr hφ hacc) hc (ix2 p u)) n
    = Ideal.div (rowSum Z p) n
  rw [Cert.LibKeepdims.shapeCast_a_a1_apply, laneSum_apply]

/-- Every entry less its row's lane mean, the mean column spread over the lanes. -/
def kCentered : FVec Ideal ⟨2, ![a, c]⟩ .f32 :=
  subf Y (broadcastTo ⟨2, ![a, c]⟩ (kLaneMeanCol n hr hφ hacc hc Y) hb)

theorem kCentered_eq : kCentered n Y hr hφ hacc hc hb = centered n Y :=
  funext fun i => by
    obtain ⟨p, q, rfl⟩ : ∃ (p : Fin a) (q : Fin c), i = ix2 p q := ⟨i 0, i 1, eq_ix2 i⟩
    show Y (ix2 p q) - broadcastTo ⟨2, ![a, c]⟩ (kLaneMeanCol n hr hφ hacc hc Y) hb (ix2 p q)
      = Y (ix2 p q) - Ideal.div (rowSum Y p) n
    rw [Cert.LibKeepdims.broadcastTo_a1_ab_apply, kLaneMeanCol_apply]

/-- The column rsqrt(lane mean of D · D + eps), the eps a broadcast scalar. -/
def kRstdColOf (D : FVec Ideal ⟨2, ![a, c]⟩ .f32) : FVec Ideal ⟨2, ![a, 1]⟩ .f32 :=
  rsqrt (addf (kLaneMeanCol n hr hφ hacc hc (mulf D D)) (broadcast ⟨2, ![a, 1]⟩ eps))

theorem kRstdColOf_centered_apply (p : Fin a) (u : Fin 1) :
    kRstdColOf n eps hr hφ hacc hc (kCentered n Y hr hφ hacc hc hb) (ix2 p u) = Ideal.rsqrt (rowVar n Y p + eps) := by
  rw [kCentered_eq]
  show Ideal.rsqrt (kLaneMeanCol n hr hφ hacc hc (mulf (centered n Y) (centered n Y)) (ix2 p u) + eps)
    = Ideal.rsqrt (rowVar n Y p + eps)
  rw [kLaneMeanCol_apply]
  rfl

variable (w b : FVec Ideal ⟨1, ![c]⟩ .f32) (hcw : (⟨1, ![c]⟩ : Shape).ShapeCasts ⟨2, ![1, c]⟩)
  (hbw : (⟨2, ![1, c]⟩ : Shape).Broadcasts ⟨2, ![a, c]⟩)

/-- The normalised, scaled array: D · (rstd column over the lanes) · (scale row down the rows), D the centered array. -/
def kLNScaled : FVec Ideal ⟨2, ![a, c]⟩ .f32 :=
  mulf (mulf (kCentered n Y hr hφ hacc hc hb)
      (broadcastTo ⟨2, ![a, c]⟩ (kRstdColOf n eps hr hφ hacc hc (kCentered n Y hr hφ hacc hc hb)) hb))
    (broadcastTo ⟨2, ![a, c]⟩ (shapeCast ⟨2, ![1, c]⟩ w hcw) hbw)

/-- … and the shift row added down the rows. -/
def kLN : FVec Ideal ⟨2, ![a, c]⟩ .f32 :=
  addf (kLNScaled n eps Y hr hφ hacc hc hb w hcw hbw) (broadcastTo ⟨2, ![a, c]⟩ (shapeCast ⟨2, ![1, c]⟩ b hcw) hbw)

/-- A kernel's spelling of the layer normalisation is `lnRows`. -/
theorem kLN_eq : kLN n eps Y hr hφ hacc hc hb w b hcw hbw = lnRows n eps Y w b :=
  funext fun i => by
    obtain ⟨p, q, rfl⟩ : ∃ (p : Fin a) (q : Fin c), i = ix2 p q := ⟨i 0, i 1, eq_ix2 i⟩
    show kCentered n Y hr hφ hacc hc hb (ix2 p q)
          * broadcastTo ⟨2, ![a, c]⟩ (kRstdColOf n eps hr hφ hacc hc (kCentered n Y hr hφ hacc hc hb)) hb (ix2 p q)
          * broadcastTo ⟨2, ![a, c]⟩ (shapeCast ⟨2, ![1, c]⟩ w hcw) hbw (ix2 p q)
        + broadcastTo ⟨2, ![a, c]⟩ (shapeCast ⟨2, ![1, c]⟩ b hcw) hbw (ix2 p q)
      = centered n Y (ix2 p q) * Ideal.rsqrt (rowVar n Y p + eps) * w (ix1 q) + b (ix1 q)
    rw [Cert.LibKeepdims.broadcastTo_a1_ab_apply, kRstdColOf_centered_apply, broadcastTo_1b_ab_apply,
      broadcastTo_1b_ab_apply, shapeCast_a_1a_apply, shapeCast_a_1a_apply, kCentered_eq]

end Spelling

/-- x0 + L · σ(L), entry by entry. -/
def kSiluRes (X0 L : FVec Ideal ⟨2, ![a, c]⟩ .f32) : FVec Ideal ⟨2, ![a, c]⟩ .f32 := addf X0 (mulf L (logistic L))

theorem kSiluRes_apply (X0 L : FVec Ideal ⟨2, ![a, c]⟩ .f32) (i : (⟨2, ![a, c]⟩ : Shape).Idx) :
    kSiluRes X0 L i = X0 i + silu (L i) := rfl

end Cert.Stage

end
-- ==== Proof.TilePay.lean ====
/-
  What the kernel computes from one tile.

  A tile is a [5000, 2] block x of aggregated node features. With the weight matrix w [2, 256], the bias b, the scale g
  and the shift s (vectors of 256), the body forms h = max(x·w + b, 0), normalises every row of h (mean and variance as
  lane sums divided by 256, the reciprocal square root of variance + ε, scale, shift) and sums the 5000 rows:
      tile(q) = Σ_r LN(h)(r, q).
  The sum down the rows of an [a, c] array read at column q is the sum over r of the entries (r, q).
-/
import proofs.«143485_j29368986370400_2_alg».proof.Proof.Gen.KernelIdeal.Skeleton
import proofs.«143485_j29368986370400_2_alg».proof.Proof.LibKernelLN
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Layer Cert.RowLocal Cert.Stage

/-- The divisor 256 and the zero, as extended reals. -/
abbrev n256 : EReal := Ideal.ofBits .f32 0x43800000#32
abbrev z0 : EReal := Ideal.ofBits .f32 0x00000000#32

/-- Over the column index (q), the index with row r put back on axis 0 is (r, q). -/
theorem lift_col {a c : Nat} (h : (⟨2, ![a, c]⟩ : Shape).Reduces [0] ⟨1, ![c]⟩) (q : Fin c) (r : Fin a) :
    h.lift (ix1 q) r = ix2 r q := by
  funext d
  apply Fin.ext
  match d with
  | ⟨0, _⟩ => rfl
  | ⟨1, _⟩ => rfl

/-- A sum down the rows (the reduction of axis 0 from the zero word) at column q is the sum of column q. -/
theorem colSum_apply {a c : Nat} (Y : FVec Ideal ⟨2, ![a, c]⟩ .f32) (h : (⟨2, ![a, c]⟩ : Shape).Reduces [0] ⟨1, ![c]⟩)
    (hφ : FKind.Formats .f32) (hacc : (0x00000000#32 : BitVec 32) = FKind.add.neutral .f32 hφ) (q : Fin c) :
    multiReduction .add [0] ⟨1, ![c]⟩ Y 0x00000000#32 h hφ hacc (ix1 q) = ∑ r : Fin a, Y (ix2 r q) :=
  (Ideal.multiReduction_add_single Y _ h hφ hacc (ix1 q)).trans
    (Finset.sum_congr rfl fun r _ => congrArg Y (lift_col h q r))

/-- The rectified dense layer of a tile, in the body's spelling, is max(x·w + b, 0). -/
theorem hidden_eq (x0 : FVec Ideal S5000x2 .f32) (x1 : FVec Ideal S2x256 .f32) (x2 : FVec Ideal S256 .f32) :
    (maximumf (addf (matmul dot_S5000x2_S2x256_S5000x256_1_0_0_1_n_n none (shapeCast S5000x2 x0 shapeCasts_S5000x2_S5000x2) x1
          (constant S5000x256 .f32 0x00000000#32))
        (broadcastTo S5000x256 (shapeCast S1x256 x2 shapeCasts_S256_S1x256) broadcasts_S1x256_S5000x256))
      (broadcast S5000x256 (Scalar.ofBits .f32 0x00000000#32)) : FVec Ideal S5000x256 .f32)
      = act (prod x0 x1) x2 z0 := by
  rw [shapeCast_self, kernelProd_eq _ rfl rfl rfl rfl rfl rfl]
  exact kernelAct_eq _ x2 shapeCasts_S256_S1x256 broadcasts_S1x256_S5000x256 z0

/-- The tile's payload at column q: the sum over the tile's rows of the normalised hidden rows. -/
theorem pay3_apply (x0 : Vec Ideal S5000x2 .f32) (x1 : Vec Ideal S2x256 .f32) (x2 x3 x4 : Vec Ideal S256 .f32) (q : Fin 256) :
    k0_pay3 (F := Ideal) x0 x1 x2 x3 x4 (ix1 q)
      = ∑ r : Fin 5000, lnRows n256 eps5 (act (prod x0 x1) x2 z0) x3 x4 (ix2 r q) := by
  have hk : k0_pay3 (F := Ideal) x0 x1 x2 x3 x4 = multiReduction .add [0] S256
      (kLN (Scalar.ofBits .f32 0x43800000#32) (Scalar.ofBits .f32 0x3727C5AC#32)
        (maximumf (addf (matmul dot_S5000x2_S2x256_S5000x256_1_0_0_1_n_n none
            (shapeCast S5000x2 (x0 : FVec Ideal S5000x2 .f32) shapeCasts_S5000x2_S5000x2) (x1 : FVec Ideal S2x256 .f32)
            (constant S5000x256 .f32 0x00000000#32))
          (broadcastTo S5000x256 (shapeCast S1x256 (x2 : FVec Ideal S256 .f32) shapeCasts_S256_S1x256) broadcasts_S1x256_S5000x256))
        (broadcast S5000x256 (Scalar.ofBits .f32 0x00000000#32)))
        reduces_S5000x256_S5000 (.inl rfl) rfl shapeCasts_S5000_S5000x1 broadcasts_S5000x1_S5000x256 x3 x4
        shapeCasts_S256_S1x256 broadcasts_S1x256_S5000x256)
      0x00000000#32 reduces_S5000x256_S256 (.inl rfl) rfl := rfl
  rw [hk]
  refine (colSum_apply (a := 5000) (c := 256) _ reduces_S5000x256_S256 (.inl rfl) rfl q).trans
    (Finset.sum_congr rfl fun r _ => ?_)
  exact congrFun ((kLN_eq _ _ _ _ _ _ _ _ _ _ _ _).trans
    (congrArg (fun Y => lnRows n256 eps5 Y x3 x4) (hidden_eq x0 x1 x2))) (ix2 r q)

end Cert.KernelIdeal.Tile

end
-- ==== Proof.Blocks.lean ====
/-
  What each input window stages at a grid point.

  The grid has 10 points t. Window 0 stages rows 5000·t … 5000·t + 4999 of the [50000, 2] array of aggregated node
  features: entry (p, k) of the block is entry (5000·t + p, k) of the array. Windows 1 to 4 stage the whole weight matrix
  and the whole bias, scale and shift vectors at every point (their block index is constantly zero).
-/
import proofs.«143485_j29368986370400_2_alg».proof.Proof.Gen.KernelIdeal.Frame.Runs
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The block indices over the grid: window 0 moves one block per point, windows 1 to 4 stay at block zero. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 1) = 0 :=
  (by decide +kernel : ∀ t : Fin grid0.N, win0_2.index t (0 : Fin 1) = 0)
theorem idx3 : ∀ t : Fin cfg0.N, win0_3.index t (0 : Fin 1) = 0 :=
  (by decide +kernel : ∀ t : Fin grid0.N, win0_3.index t (0 : Fin 1) = 0)
theorem idx4 : ∀ t : Fin cfg0.N, win0_4.index t (0 : Fin 1) = 0 :=
  (by decide +kernel : ∀ t : Fin grid0.N, win0_4.index t (0 : Fin 1) = 0)

/-- Row 5000·t + p of the array, for a row p of the block at point t. -/
def rowAt (t : Fin cfg0.N) (p : Fin 5000) : Fin 50000 :=
  ⟨5000 * t.val + p.val, by have := lt_of_lt_of_eq t.isLt (show cfg0.N = 10 from N_0); have := p.isLt; omega⟩

/-- Window 0's block at point t is rows 5000·t … of the aggregated features. -/
theorem iblk0_apply (c : Dev nD) (t : Fin cfg0.N) (p : Fin 5000) (k : Fin 2) :
    (iblk m c 0 t : Vec F S5000x2 .f32) (ix2 p k) = (V m c main_v42 : S50000x2.Idx → F .f32) (ix2 (rowAt t p) k) := by
  unfold iblk
  rw [View.read_apply]
  show V m c main_v42 _ = V m c main_v42 _
  congr 1
  funext a
  apply Fin.ext
  match a with
  | ⟨0, _⟩ => show win0_0.index t 0 * 5000 + 1 * p.val = 5000 * t.val + p.val; rw [(idx0 t).1]; omega
  | ⟨1, _⟩ => show win0_0.index t 1 * 2 + 1 * k.val = k.val; rw [(idx0 t).2]; omega

/-- Windows 1 to 4 stage their whole arrays, which the host operations before the region leave as they were. -/
theorem iblk1_eq (c : Dev nD) (t : Fin cfg0.N) :
    (iblk m c 1 t : Vec F S2x256 .f32) = m ((c : Thread nD τ).loc main_arg2) := by
  refine Eq.trans ?_ (V_main_arg2 m c)
  funext j
  unfold iblk
  rw [View.read_apply]
  show V m c main_arg2 _ = V m c main_arg2 j
  congr 1
  funext a
  apply Fin.ext
  match a with
  | ⟨0, _⟩ => show win0_1.index t 0 * 2 + 1 * (j 0).val = (j 0).val; rw [(idx1 t).1]; omega
  | ⟨1, _⟩ => show win0_1.index t 1 * 256 + 1 * (j 1).val = (j 1).val; rw [(idx1 t).2]; omega

theorem iblk2_eq (c : Dev nD) (t : Fin cfg0.N) :
    (iblk m c 2 t : Vec F S256 .f32) = m ((c : Thread nD τ).loc main_arg3) := by
  refine Eq.trans ?_ (V_main_arg3 m c)
  funext j
  unfold iblk
  rw [View.read_apply]
  show V m c main_arg3 _ = V m c main_arg3 j
  congr 1
  funext a
  apply Fin.ext
  match a with
  | ⟨0, _⟩ => show win0_2.index t 0 * 256 + 1 * (j 0).val = (j 0).val; rw [idx2 t]; omega

theorem iblk3_eq (c : Dev nD) (t : Fin cfg0.N) :
    (iblk m c 3 t : Vec F S256 .f32) = m ((c : Thread nD τ).loc main_arg4) := by
  refine Eq.trans ?_ (V_main_arg4 m c)
  funext j
  unfold iblk
  rw [View.read_apply]
  show V m c main_arg4 _ = V m c main_arg4 j
  congr 1
  funext a
  apply Fin.ext
  match a with
  | ⟨0, _⟩ => show win0_3.index t 0 * 256 + 1 * (j 0).val = (j 0).val; rw [idx3 t]; omega

theorem iblk4_eq (c : Dev nD) (t : Fin cfg0.N) :
    (iblk m c 4 t : Vec F S256 .f32) = m ((c : Thread nD τ).loc main_arg5) := by
  refine Eq.trans ?_ (V_main_arg5 m c)
  funext j
  unfold iblk
  rw [View.read_apply]
  show V m c main_arg5 _ = V m c main_arg5 j
  congr 1
  funext a
  apply Fin.ext
  match a with
  | ⟨0, _⟩ => show win0_4.index t 0 * 256 + 1 * (j 0).val = (j 0).val; rw [idx4 t]; omega

end Cert.KernelIdeal.Blocks

end
-- ==== Proof.TileRows.lean ====
/-
  A tile's payload in terms of the whole array.

  AGG is the [50000, 2] array of aggregated node features the region stages tile by tile; W, b, g, s the weight matrix,
  bias, scale and shift. H = max(AGG·W + b, 0) and L = the layer normalisation of every row of H are functions of whole
  arrays whose row n depends only on row n of AGG. The tile at grid point t holds rows 5000·t … 5000·t + 4999, so the
  tile's payload at column q is the sum of L(n, q) over those rows.
-/
import proofs.«143485_j29368986370400_2_alg».proof.Proof.TilePay
import proofs.«143485_j29368986370400_2_alg».proof.Proof.Blocks

noncomputable section

open scoped BigOperators

namespace Cert.KernelIdeal.TileRows

open Cert.KernelIdeal Cert.KernelIdeal.Gen Idealize.ShloMosaic Idealize.ShloMosaic.TcCoe Idealize.ShloMosaic.ValueIdx Idealize.SL.Sem
open Cert.Layer Cert.RowLocal Cert.Stage Cert.KernelIdeal.Tile Cert.KernelIdeal.Blocks

variable (m : (ℓ : Loc nD τ sig) → Buf (Elt Ideal) ℓ)

/-- The normalised hidden rows of the whole graph, as the kernel's program computes them from what the region finds. -/
def normed (c : Dev nD) : Arr 50000 256 :=
  lnRows n256 eps5
    (act (prod (V m c main_v42 : S50000x2.Idx → EReal) (m ((c : Thread nD τ).loc main_arg2))) (m ((c : Thread nD τ).loc main_arg3)) z0)
    (m ((c : Thread nD τ).loc main_arg4)) (m ((c : Thread nD τ).loc main_arg5))

/-- The payload of the tile at point t, at column q: the sum of the normalised rows 5000·t … 5000·t + 4999. -/
theorem tile_apply (c : Dev nD) (t : Fin cfg0.N) (q : Fin 256) :
    k0_pay3 (F := Ideal) (iblk m c 0 t) (iblk m c 1 t) (iblk m c 2 t) (iblk m c 3 t) (iblk m c 4 t) (ix1 q)
      = ∑ p : Fin 5000, normed m c (ix2 (rowAt t p) q) := by
  rw [pay3_apply, iblk1_eq, iblk2_eq, iblk3_eq, iblk4_eq]
  refine Finset.sum_congr rfl fun p _ => ?_
  exact rowsOf_lnRows (rowAt t) n256 eps5
    (rowsOf_act (rowAt t) (rowsOf_prod (rowAt t) (fun p k => iblk0_apply m c t p k) _) _ _) _ _ p q

end Cert.KernelIdeal.TileRows

end
-- ==== Proof.LibSumTiles.lean ====
/-
  A finite sum cut into consecutive tiles.

  A function f on the first N naturals is extended by zero to every natural; psum f n is the sum of the first n
  values. The partial sum over no rows is zero, the partial sum over all N rows is the sum over Fin N, and the
  partial sum grows by one tile of T consecutive rows at a time:  psum f (n + T) = psum f n + ∑ p < T, f (n + p).
  So a sum over Fin (T · k) accumulated tile by tile, first tile to last, is the whole sum. Only the commutative
  monoid laws of + are used; nothing here depends on a program.
-/
import Mathlib.Algebra.BigOperators.Fin
import Mathlib.Algebra.BigOperators.Intervals

open scoped BigOperators

namespace Cert.SumTiles

variable {β : Type*} [AddCommMonoid β] {N : ℕ}

/-- A function on the first N naturals, extended by zero. -/
def ext0 (f : Fin N → β) (n : ℕ) : β := if h : n < N then f ⟨n, h⟩ else 0

theorem ext0_of_lt (f : Fin N → β) (n : ℕ) (h : n < N) : ext0 f n = f ⟨n, h⟩ := dif_pos h

/-- The sum of the first n values of f (the values past N count as zero). -/
def psum (f : Fin N → β) (n : ℕ) : β := ∑ r ∈ Finset.range n, ext0 f r

/-- No rows: zero. -/
theorem psum_zero (f : Fin N → β) : psum f 0 = 0 := Finset.sum_range_zero _

/-- All N rows: the sum over Fin N. -/
theorem psum_full (f : Fin N → β) : psum f N = ∑ r : Fin N, f r := by
  unfold psum
  rw [← Fin.sum_univ_eq_sum_range (fun r => ext0 f r) N]
  exact Finset.sum_congr rfl fun r _ => ext0_of_lt f r.val r.isLt

/-- One more tile of T consecutive rows n, n + 1, …, n + T − 1, all below N. -/
theorem psum_add_tile (f : Fin N → β) (n T : ℕ) (h : n + T ≤ N) :
    psum f (n + T) = psum f n + ∑ p : Fin T, f ⟨n + p.val, by have := p.isLt; omega⟩ := by
  unfold psum
  rw [Finset.sum_range_add, ← Fin.sum_univ_eq_sum_range (fun p => ext0 f (n + p)) T]
  exact congrArg _ (Finset.sum_congr rfl fun p _ => ext0_of_lt f _ _)

/-- The first tile, from nothing: the zero in front is kept, as an accumulator started at zero has it. -/
theorem psum_first_tile (f : Fin N → β) (T : ℕ) (h : T ≤ N) :
    psum f T = 0 + ∑ p : Fin T, f ⟨p.val, by have := p.isLt; omega⟩ := by
  have e := psum_add_tile f 0 T (by omega)
  rw [psum_zero] at e
  simp only [Nat.zero_add] at e
  exact e

end Cert.SumTiles
-- ==== Proof.LibTileRange.lean ====
/-
  A sum over Fin N as a sum of J tiles of T consecutive terms, when T · J = N.

  With f extended by zero past N, the sum of the first J tiles — tile s holds the terms T·s, T·s + 1, …, T·s + T − 1 —
  is the partial sum of the first T·J terms (induction on J, one tile at a time), and for T · J = N that partial sum
  is the whole sum. Only the commutative monoid laws of + are used.
-/
import proofs.«143485_j29368986370400_2_alg».proof.Proof.LibSumTiles

open scoped BigOperators

namespace Cert.SumTiles

variable {β : Type*} [AddCommMonoid β] {N : ℕ}

/-- The first J tiles of T terms each add up to the partial sum of the first T · J terms. -/
theorem range_tiles (f : Fin N → β) (T : ℕ) : ∀ J : ℕ, T * J ≤ N →
    ∑ s ∈ Finset.range J, ∑ p : Fin T, ext0 f (T * s + p.val) = psum f (T * J)
  | 0, _ => by rw [Finset.sum_range_zero, Nat.mul_zero, psum_zero]
  | J + 1, h => by
    have hJ : T * J + T ≤ N := by rw [← Nat.mul_succ]; exact h
    rw [Finset.sum_range_succ, range_tiles f T J (le_trans (Nat.le_add_right _ _) hJ), Nat.mul_succ,
      psum_add_tile f (T * J) T hJ]
    exact congrArg _ (Finset.sum_congr rfl fun p _ => ext0_of_lt f _ _)

/-- J tiles of T terms that exhaust Fin N add up to the sum over Fin N. -/
theorem sum_tiles (f : Fin N → β) (T J : ℕ) (h : T * J = N) :
    ∑ s ∈ Finset.range J, ∑ p : Fin T, ext0 f (T * s + p.val) = ∑ r : Fin N, f r := by
  rw [range_tiles f T J (le_of_eq h), h, psum_full]

end Cert.SumTiles
-- ==== Proof.PoolSum.lean ====
/-
  Adding up 50000 rows tile by tile on two cores.

  The rows are cut into 10 tiles of 5000 consecutive rows. A core accumulates its five tile sums in order, starting
  again from zero at its first tile; the two cores' totals are added at the end. Addition being commutative and
  associative, the result is the sum over all rows.
-/
import proofs.«143485_j29368986370400_2_alg».proof.Proof.LibTileRange

noncomputable section

open scoped BigOperators

namespace Cert.PoolSum

open Cert.SumTiles

variable {β : Type*} [AddCommMonoid β]

/-- The accumulator after tile n: restarted from zero at tiles 0 and 5, otherwise the previous value plus the tile. -/
def chain (g : ℕ → β) : ℕ → β
  | 0 => 0 + g 0
  | n + 1 => if (n + 1) % 5 = 0 then 0 + g (n + 1) else chain g n + g (n + 1)

/-- The two cores' totals add up to the sum of the ten tiles. -/
theorem chain_two_cores (g : ℕ → β) : chain g 4 + chain g 9 = ∑ i ∈ Finset.range 10, g i := by
  simp only [chain, Finset.sum_range_succ, Finset.sum_range_zero, zero_add, Nat.reduceAdd, Nat.reduceMod,
    Nat.reduceEqDiff, if_true, if_false, OfNat.ofNat_ne_zero, one_ne_zero]
  simp only [add_assoc]

/-- Ten tiles of 5000 consecutive rows add up to the sum over all 50000 rows. -/
theorem sum_ten_tiles (f : Fin 50000 → β) :
    ∑ j : Fin 10, ∑ p : Fin 5000, f ⟨5000 * j.val + p.val, by have := j.isLt; have := p.isLt; omega⟩ = ∑ n : Fin 50000, f n := by
  rw [← sum_tiles f 5000 10 rfl, Finset.sum_range]
  refine Finset.sum_congr rfl fun j _ => Finset.sum_congr rfl fun p _ => ?_
  exact (ext0_of_lt f _ _).symm

/-- An accumulator given point by point over N = 10 grid points (restarted at points 0 and 5) ends, on the two cores
    together, at the sum of the ten tiles. -/
theorem acc_two_cores {N : ℕ} (hN : N = 10) (z : β) (hz : z = 0) (tile acc : (n : ℕ) → n < N → β)
    (h0 : ∀ h, acc 0 h = z + tile 0 h)
    (hs : ∀ n (h : n + 1 < N), acc (n + 1) h
      = if (n + 1) % 5 = 0 then z + tile (n + 1) h else acc n (Nat.lt_of_succ_lt h) + tile (n + 1) h) :
    acc 4 (by omega) + acc 9 (by omega) = ∑ j : Fin N, tile j.val j.isLt := by
  subst hz
  let g : ℕ → β := fun n => if h : n < N then tile n h else 0
  have hg : ∀ n (h : n < N), g n = tile n h := fun n h => dif_pos h
  have hacc : ∀ n (h : n < N), acc n h = chain g n := by
    intro n
    induction n with
    | zero => intro h; rw [h0, chain, hg 0 h]
    | succ n ih =>
      intro h
      rw [hs n h, chain, ih (Nat.lt_of_succ_lt h), hg (n + 1) h]
  rw [hacc, hacc, chain_two_cores, ← hN, Finset.sum_range]
  exact Finset.sum_congr rfl fun j _ => hg j.val j.isLt

/-- … and, each tile being the sum of its 5000 consecutive rows, at the sum over all 50000 rows. -/
theorem acc_total {N : ℕ} (hN : N = 10) (z : β) (hz : z = 0) (f : Fin 50000 → β) (tile acc : (n : ℕ) → n < N → β)
    (h0 : ∀ h, acc 0 h = z + tile 0 h)
    (hs : ∀ n (h : n + 1 < N), acc (n + 1) h
      = if (n + 1) % 5 = 0 then z + tile (n + 1) h else acc n (Nat.lt_of_succ_lt h) + tile (n + 1) h)
    (htile : ∀ n (h : n < N), tile n h = ∑ p : Fin 5000, f ⟨5000 * n + p.val, by have := p.isLt; omega⟩) :
    acc 4 (by omega) + acc 9 (by omega) = ∑ n : Fin 50000, f n := by
  subst hN
  rw [acc_two_cores rfl z hz tile acc h0 hs]
  simp only [htile]
  exact sum_ten_tiles f

end Cert.PoolSum

end
-- ==== Proof.KernelPool.lean ====
/-
  The pooled vector of the kernel's program.

  After the region, row 8·core of the [16, 256] result array holds core's running sum after its last tile; the host
  operations then add the two rows. Each tile's payload is the sum of the normalised hidden rows of its 5000 nodes, so
  the pooled vector at column q is the sum over all 50000 nodes of the normalised hidden row's entry q (from the zero the
  host sum starts at).
-/
import proofs.«143485_j29368986370400_2_alg».proof.Proof.KernelAcc
import proofs.«143485_j29368986370400_2_alg».proof.Proof.KernelRun
import proofs.«143485_j29368986370400_2_alg».proof.Proof.TileRows
import proofs.«143485_j29368986370400_2_alg».proof.Proof.PoolSum

noncomputable section

open scoped BigOperators

namespace Cert.KernelIdeal.PoolVal

open Cert.KernelIdeal Cert.KernelIdeal.Gen Idealize.ShloMosaic Idealize.ShloMosaic.TcCoe Idealize.ShloMosaic.ValueIdx Idealize.SL.Sem
open Cert.KernelIdeal.Blocks Cert.KernelIdeal.TileRows

variable (m : (ℓ : Loc nD τ sig) → Buf (Elt Ideal) ℓ)

/-- The pooled vector at column q: zero plus the sum of the normalised hidden rows' entries q over all nodes. -/
theorem pooled_apply (c : Dev nD) (q : Fin 256) :
    Run.pool (F := Ideal) ((dats m 0 c).arrAt 5 cfg0.N) (ix1 q)
      = Ideal.ofBits .f32 0x00000000#32 + ∑ n : Fin 50000, normed m c (ix2 n q) := by
  rw [Run.pool_apply, Fin.sum_univ_two, Acc.final_row m c 0 q, Acc.final_row m c 1 q]
  refine congrArg (Ideal.ofBits .f32 0x00000000#32 + ·) ?_
  refine Cert.PoolSum.acc_total (N := cfg0.N) N_0 (Ideal.ofBits .f32 0x00000000#32) Ideal.ofBits_zero_f32
    (fun n => normed m c (ix2 n q)) (fun n h => Acc.tile m c ⟨n, h⟩ (ix1 q)) (fun n h => Acc.acc m c n h q)
    (fun h => Acc.acc_zero m c h q) (fun n h => ?_) (fun n h => ?_)
  · by_cases h0 : (n + 1) % 5 = 0
    · rw [if_pos h0]; exact Acc.acc_reset m c n h q h0
    · rw [if_neg h0]; exact Acc.acc_step m c n h q h0
  · exact tile_apply m c ⟨n, h⟩ q

end Cert.KernelIdeal.PoolVal

end
-- ==== Proof.KernelAgg.lean ====
/-
  THE KERNEL PROGRAM BEFORE ITS REGION: what the host computes and hands the region as the array [50000, 2].

  From the edge list (two rows of 800000 node numbers: sources, targets) the program forms, with the 50000 self-loops
  n → n appended, the 850000 sources and the 850000 targets; the in-degree of every node (ones scatter-added at the
  targets); its reciprocal square root where the degree is positive and zero elsewhere; for every edge the product
  of that value at its source and at its target (negative node numbers wrapped by adding 50000 before the lookup);
  the two features of the edge's source node, gathered and scaled by that product; and the scatter-add of the scaled
  rows at the targets, from zero. The last array is what the region's first window stages.

  Three functions of the edge list alone name the pieces: the scatter's target column, the gather's source column,
  and the per-edge scale. The reference program computes the same three by the same operations, so they are the
  reference's stages of the same content.
-/
import proofs.«143485_j29368986370400_2_alg».proof.Proof.Gen.KernelIdeal.Frame.Runs
import proofs.«143485_j29368986370400_2_alg».proof.Proof.RefReadP
import Idealize.ShloMosaic.Lib.StableHlo.Run

noncomputable section

namespace Cert.KernelIdeal.Agg

open Cert.KernelIdeal Cert.KernelIdeal.Gen Idealize.ShloMosaic Idealize.ShloMosaic.TcCoe Idealize.SL.Sem
  Idealize.ShloMosaic.StableHlo

variable {F : FTy → Type} [FloatOps F]

/-! ## The pieces, as functions of the edge list -/

/-- The sources: row 0 of the edge list as a vector of 800000 node numbers, followed by the self-loops 0, …, 49999. -/
def srcs (x1 : IVec S2x800000 32) : IVec S850000 32 :=
  concatenate S850000 0
    [⟨S800000, shapeCast S800000 (extractStridedSlice S1x800000 ![0, 0] x1 slices_S2x800000_S1x800000_0_0)
        shapeCasts_S1x800000_S800000⟩,
      ⟨S50000, iotaInDim S50000 32 0⟩] concatenates_S800000_S50000_S850000_d0

/-- The targets: row 1 likewise. -/
def dsts (x1 : IVec S2x800000 32) : IVec S850000 32 :=
  concatenate S850000 0
    [⟨S800000, shapeCast S800000 (extractStridedSlice S1x800000 ![1, 0] x1 slices_S2x800000_S1x800000_1_0)
        shapeCasts_S1x800000_S800000⟩,
      ⟨S50000, iotaInDim S50000 32 0⟩] concatenates_S800000_S50000_S850000_d0

/-- A negative node number wrapped by adding 50000, the others kept. -/
def wrapped (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- the scatter's index column: the targets with the self-loops, as [850000, 1] -/
def didx (x1 : IVec S2x800000 32) : IVec S850000x1 32 :=
  broadcastInDim S850000x1 ![0] bcast_S850000_S850000x1_0 (dsts x1)

/-- the gather's index column: the sources with the self-loops, negative ones wrapped, as [850000, 1] -/
def sidx (x1 : IVec S2x800000 32) : IVec S850000x1 32 :=
  broadcastInDim S850000x1 ![0] bcast_S850000_S850000x1_0 (wrapped (srcs x1))

/-- Every node's in-degree: ones scatter-added at the targets, from zero. -/
def deg (x1 : IVec S2x800000 32) : FVec F S50000 .f32 :=
  Host.scatterAdd (F := F) scatter_S50000_S850000x1_S850000_n_0_0_1
    (broadcastInDim S50000 ![] bcast_S_S50000 (constant (F := F) S_ .f32 0x00000000#32)) (didx x1)
    (broadcastInDim S850000 ![] bcast_S_S850000 (constant (F := F) S_ .f32 0x3F800000#32))

/-- The reciprocal square root of the degree where it is positive, zero elsewhere. -/
def dinv (x1 : IVec S2x800000 32) : FVec F S50000 .f32 :=
  select
    (cmpf (F := F) .ogt (deg (F := F) x1)
      (broadcastInDim S50000 ![] bcast_S_S50000 (constant (F := F) S_ .f32 0x00000000#32)))
    (Host.rsqrt (F := F) (deg (F := F) x1))
    (broadcastInDim S50000 ![] bcast_S_S50000 (id (constant (F := F) S_ .f32 0x00000000#32)))

/-- the per-edge scale: that value at the edge's source times that value at its target -/
def norm (x1 : IVec S2x800000 32) : FVec F S850000 .f32 :=
  mulf
    (Host.gather gather_S50000_S850000x1_S850000_n_0_n_n_0_1_1 (dinv (F := F) x1) (sidx x1))
    (Host.gather gather_S50000_S850000x1_S850000_n_0_n_n_0_1_1 (dinv (F := F) x1)
      (broadcastInDim S850000x1 ![0] bcast_S850000_S850000x1_0 (wrapped (dsts x1))))

/-! ## The array the region finds -/

/-- The host's array [50000, 2] when the region is entered: the scatter-add at the targets, from zero, of the
    source nodes' feature rows scaled edge by edge. -/
theorem V_agg (m : (ℓ : Loc nD τ sig) → Buf (Elt F) ℓ) (c : Dev nD) :
    (V m c main_v42 : S50000x2.Idx → F .f32) =
      Host.scatterAdd (F := F) scatter_S50000x2_S850000x1_S850000x2_1_0_0_1
        (broadcastInDim S50000x2 ![] bcast_S_S50000x2 (constant (F := F) S_ .f32 0x00000000#32))
        (didx (m ((c : Thread nD τ).loc main_arg1)))
        (mulf
          (Host.gather gather_S50000x2_S850000x1_S850000x2_1_0_n_n_0_1_12 (m ((c : Thread nD τ).loc main_arg0))
            (sidx (m ((c : Thread nD τ).loc main_arg1))))
          (broadcastInDim S850000x2 ![0, 1] bcast_S850000x1_S850000x2_0_1
            (broadcastInDim S850000x1 ![0] bcast_S850000_S850000x1_0
              (norm (F := F) (m ((c : Thread nD τ).loc main_arg1)))))) := by
  dsimp only [V, V0]
  simp only [hostOps0, hostOps0_1, hostOps0_2, List.flatten_cons, List.flatten_nil, List.append_nil, List.cons_append,
    List.nil_append]
  after_results_simp
  rfl

/-! ## The same pieces in the reference program

  The reference forms the targets, the wrapped sources and the per-edge scale by the same operations on the edge
  list; its stages differ from the functions above only in which program's shape facts they cite. -/

section Reference

open Cert.ReferenceIdeal.ReadP

/-- The scatter's index column is the reference's. -/
theorem didx_eq (x1 : IVec S2x800000 32) : didx x1 = val_main_v42 (F := Ideal) x1 := by
  unfold didx dsts val_main_v42 val_main_v6 val_main_v5 val_main_v4 val_main_v0
  rfl

/-- The gather's index column is the reference's. -/
theorem sidx_eq (x1 : IVec S2x800000 32) : sidx x1 = val_main_v36 (F := Ideal) x1 := by
  unfold sidx wrapped srcs val_main_v36 val_main_v35 val_main_v34 val_main_v33 val_main_c_7 val_main_v32 val_main_v31
    val_main_c_6 val_main_v3 val_main_v2 val_main_v1 val_main_v0
  rfl

/-- The per-edge scale is the reference's. -/
theorem norm_eq (x1 : IVec S2x800000 32) : norm (F := Ideal) x1 = val_main_v29 (F := Ideal) x1 := by
  unfold norm dinv deg sidx didx wrapped srcs dsts val_main_v29 val_main_v28 val_main_v27 val_main_v26 val_main_v25
    val_main_v24 val_main_c_5 val_main_v23 val_main_v22 val_main_c_4 val_main_v21 val_main_v20 val_main_v19
    val_main_v18 val_main_v17 val_main_c_3 val_main_v16 val_main_v15 val_main_c val_main_v14 val_main_call0_v1
    val_main_call0_v0 val_main_cst_2 val_main_v13 val_main_v12 val_main_v11 val_main_cst_1 val_main_v10 val_main_v9
    val_main_v8 val_main_cst_0 val_main_v7 val_main_cst val_main_v6 val_main_v5 val_main_v4 val_main_v3 val_main_v2
    val_main_v1 val_main_v0
  rfl

end Reference

end Cert.KernelIdeal.Agg

end
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.LibSegLanding.lean ====
/-
  Where a row added into a segment lands, exactly, and the segment sum read at an index.

  Rows [R, C] are added into an [N, C] array at scatter indices [R, 1]. The update (e, k') lands on the element (n, k)
  exactly when the signed index of e is n AND k' = k: the row comes from the index, the column is kept. So the set of
  updates landing on (n, k) is { (e, k) : the index of e is n }, and the edges in it do not depend on k: the result at
  (n, k) is the operand there plus the sum, over the edges e whose index is n, of the update's entry (e, k).
  Generic in the three extents.

  Also: ones added into zeros give, at every element, a nonnegative real (a finite sum of ones), whatever the dimension
  numbers and shapes.
-/
import proofs.«143485_j29368986370400_2_alg».proof.Proof.LibSegSum
import proofs.«143485_j29368986370400_2_alg».proof.Proof.LibExtReals

noncomputable section

open scoped BigOperators

namespace Cert.Net

open Idealize.ShloMosaic Idealize.ShloMosaic.ValueIdx Cert.LibSegSum

/-- The update (e, k') lands on (n, k) exactly when the signed index of e is n and k' = k. -/
theorem addRows_lands_iff {N R C : Nat}
    (wf : ScatterDims.WF ⟨2, ![N, C]⟩ ⟨2, ![R, 1]⟩ ⟨2, ![R, C]⟩ [1] [0] [0] 1)
    (idx : IVec ⟨2, ![R, 1]⟩ 32) (e : Fin R) (k' : Fin C) (n : Fin N) (k : Fin C) :
    (addRowsDims N R C wf).resultIdx? (ix2 e k') idx = some (ix2 n k)
      ↔ (idx (at0 e)).toInt = (n.val : Int) ∧ k' = k := by
  have hsi : (addRowsDims N R C wf).siIdx (ix2 e k') ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hs0 : (addRowsDims N R C wf).start (ix2 e k') idx 0 = (idx (at0 e)).toInt := by
    unfold ScatterDims.start
    rw [dif_pos (show (0 : Fin 2) ∈ (addRowsDims N R C wf).scatterDimsToOperandDims from List.mem_singleton.mpr rfl), hsi]
  have hw0 : (addRowsDims N R C wf).window (ix2 e k') 0 = 0 := by
    unfold ScatterDims.window
    rw [dif_neg (show (0 : Fin 2) ∉ (addRowsDims N R C wf).sKept from (by decide : (0 : Fin 2) ∉ (List.finRange 2).filter (· ∉ ([0] : List (Fin 2)))))]
  have hs1 : (addRowsDims N R C wf).start (ix2 e k') idx 1 = 0 := by
    unfold ScatterDims.start
    rw [dif_neg (show (1 : Fin 2) ∉ (addRowsDims N R C wf).scatterDimsToOperandDims from (by decide : (1 : Fin 2) ∉ ([0] : List (Fin 2))))]
  have hw1 : (addRowsDims N R C wf).window (ix2 e k') 1 = k'.val := by
    unfold ScatterDims.window
    rw [dif_pos (show (1 : Fin 2) ∈ (addRowsDims N R C wf).sKept from (by decide : (1 : Fin 2) ∈ (List.finRange 2).filter (· ∉ ([0] : List (Fin 2)))))]
    rfl
  unfold ScatterDims.resultIdx?
  split
  · rename_i hin
    constructor
    · intro h
      have hf := Option.some.inj h
      have h0 := congrArg (fun f => (f 0).val) hf
      have h1 := congrArg (fun f => (f 1).val) hf
      simp only at h0 h1
      have hb := (hin 0).1
      rw [hs0, hw0] at h0 hb
      rw [hs1, hw1] at h1
      simp only [Nat.cast_zero, add_zero] at h0 hb
      refine ⟨?_, Fin.ext ?_⟩
      · show (idx (at0 e)).toInt = (n.val : Int)
        have : ((ix2 n k : (⟨2, ![N, C]⟩ : Shape).Idx) 0).val = n.val := rfl
        omega
      · have : ((ix2 n k : (⟨2, ![N, C]⟩ : Shape).Idx) 1).val = k.val := rfl
        omega
    · rintro ⟨hv, rfl⟩
      refine congrArg some (funext fun a => Fin.ext ?_)
      match a with
      | ⟨0, _⟩ =>
        show ((addRowsDims N R C wf).start (ix2 e k') idx 0 + ((addRowsDims N R C wf).window (ix2 e k') 0 : Nat)).toNat = n.val
        rw [hs0, hw0, hv]; simp
      | ⟨1, _⟩ =>
        show ((addRowsDims N R C wf).start (ix2 e k') idx 1 + ((addRowsDims N R C wf).window (ix2 e k') 1 : Nat)).toNat = k'.val
        rw [hs1, hw1]; simp
  · rename_i hin
    constructor
    · intro h; exact absurd h (by simp)
    · rintro ⟨hv, rfl⟩
      exfalso; apply hin
      intro a
      match a with
      | ⟨0, _⟩ =>
        show 0 ≤ (addRowsDims N R C wf).start (ix2 e k') idx 0 + ((addRowsDims N R C wf).window (ix2 e k') 0 : Nat)
          ∧ (addRowsDims N R C wf).start (ix2 e k') idx 0 + ((addRowsDims N R C wf).window (ix2 e k') 0 : Nat) < (N : Int)
        rw [hs0, hw0, hv]
        have := n.isLt
        constructor <;> simp <;> omega
      | ⟨1, _⟩ =>
        show 0 ≤ (addRowsDims N R C wf).start (ix2 e k') idx 1 + ((addRowsDims N R C wf).window (ix2 e k') 1 : Nat)
          ∧ (addRowsDims N R C wf).start (ix2 e k') idx 1 + ((addRowsDims N R C wf).window (ix2 e k') 1 : Nat) < (C : Int)
        rw [hs1, hw1]
        have := k'.isLt
        constructor <;> simp <;> omega

/-- Rows added into segments, read at (n, k): the operand there plus the sum over the edges e whose signed index is n
    of the update's entry (e, k). Which edges count does not depend on the column k. -/
theorem scatterAdd_rows_apply {N R C : Nat}
    (wf : ScatterDims.WF ⟨2, ![N, C]⟩ ⟨2, ![R, 1]⟩ ⟨2, ![R, C]⟩ [1] [0] [0] 1)
    (Z : FVec Ideal ⟨2, ![N, C]⟩ .f32) (idx : IVec ⟨2, ![R, 1]⟩ 32) (upd : FVec Ideal ⟨2, ![R, C]⟩ .f32)
    (n : Fin N) (k : Fin C) :
    Host.scatterAdd (addRowsDims N R C wf) Z idx upd (ix2 n k)
      = Z (ix2 n k) + ∑ e : Fin R, if (idx (at0 e)).toInt = (n.val : Int) then upd (ix2 e k) else 0 := by
  simp only [Host.scatterAdd, Ideal.hostScatterAdd_def, Ideal.hostScatterAdd]
  congr 1
  rw [Finset.sum_filter, sum_idx2]
  refine Finset.sum_congr rfl fun e _ => ?_
  simp only [addRows_lands_iff]
  by_cases h : (idx (at0 e)).toInt = (n.val : Int)
  · simp only [h, true_and, if_true]
    exact (Finset.sum_ite_eq' Finset.univ k fun k' => upd (ix2 e k')).trans (if_pos (Finset.mem_univ k))
  · simp only [h, false_and, if_false]
    exact Finset.sum_const_zero

/-- Ones added into zeros: every entry of the result is a nonnegative real, whatever the dimension numbers. -/
theorem scatterAdd_ones_real {s si u : Shape} {w : Nat} (d : ScatterDims s si u) (Z : FVec Ideal s .f32) (idx : IVec si w)
    (upd : FVec Ideal u .f32) (hZ : ∀ i, Z i = 0) (hU : ∀ j, upd j = 1) (i : s.Idx) :
    ∃ r : ℝ, 0 ≤ r ∧ Host.scatterAdd d Z idx upd i = (r : EReal) := by
  simp only [Host.scatterAdd, Ideal.hostScatterAdd_def, Ideal.hostScatterAdd]
  rw [hZ, zero_add, Finset.sum_congr rfl fun j _ => hU j]
  exact sum_ones_real _

end Cert.Net

end
-- ==== Proof.NormReal.lean ====
/-
  The per-edge factor is a real number.

  deg(n) counts the edges whose target is n (ones added into zeros): a nonnegative real. dinv(n) is deg(n)^(-1/2) where
  deg(n) > 0 and 0 elsewhere: a real, because the reciprocal square root of a positive real is real (at 0 it would be +∞,
  which the guard excludes). The factor of an edge is the product of dinv at its two end nodes, each read by a gather,
  which returns some entry of dinv whatever the index is (indices are clamped).
-/
import proofs.«143485_j29368986370400_2_alg».proof.Proof.RefReadP
import proofs.«143485_j29368986370400_2_alg».proof.Proof.LibSegLanding
import Idealize.ShloMosaic.Lib.IdealHost

noncomputable section

namespace Cert.ReferenceIdeal.NormReal

open Cert.ReferenceIdeal Cert.ReferenceIdeal.Gen Cert.ReferenceIdeal.ReadP Idealize.ShloMosaic Idealize.ShloMosaic.ValueIdx Cert.LibSegSum Cert.Net

/-- The degree of a node is a nonnegative real. -/
theorem deg_real (x1 : IVec S2x800000 32) (i : S50000.Idx) :
    ∃ r : ℝ, 0 ≤ r ∧ val_main_v10 (F := Ideal) x1 i = (r : EReal) := by
  unfold val_main_v10
  refine scatterAdd_ones_real _ _ _ _ (fun i => ?_) (fun j => ?_) i
  · rw [val_main_v8_apply, val_main_cst_0_apply]; exact Ideal.ofBits_zero_f32
  · rw [val_main_v7_apply, val_main_cst_apply]; exact Ideal.ofBits_one_f32

/-- A comparison x > 0 that holds makes x positive. -/
theorem pos_of_ogt (x : EReal) (h : Ideal.cmp .ogt x 0 = 1#1) : 0 < x := by
  by_contra hn
  have h0 : Ideal.cmp .ogt x 0 = 0#1 := by
    unfold Ideal.cmp
    simp [hn]
  rw [h0] at h
  exact absurd h (by decide)

/-- The guarded inverse square root of the degree is real. -/
theorem dinv_real (x1 : IVec S2x800000 32) (i : S50000.Idx) : ∃ r : ℝ, val_main_v14 (F := Ideal) x1 i = (r : EReal) := by
  rw [val_main_v14_apply, val_main_v12_apply, val_main_v13_apply, val_main_v11_apply, val_main_cst_1_apply,
    val_main_call0_v1_apply, val_main_call0_v0_apply, val_main_cst_2_apply]
  obtain ⟨d, hd0, hd⟩ := deg_real x1 i
  rw [hd]
  show ∃ r : ℝ, Scalar.select (Ideal.cmp .ogt (d : EReal) (Ideal.ofBits .f32 0x00000000#32)) (Ideal.rsqrt (d : EReal))
    (Ideal.ofBits .f32 0x00000000#32) = (r : EReal)
  rw [Ideal.ofBits_zero_f32]
  unfold Scalar.select
  split
  · rename_i hc
    have hr : 0 < d := by exact_mod_cast pos_of_ogt _ hc
    rw [Ideal.rsqrt_coe, if_neg (not_lt.mpr hr.le), if_neg hr.ne']
    exact ⟨_, rfl⟩
  · exact ⟨0, EReal.coe_zero.symm⟩

/-- An entry gathered from dinv is real, whatever the index vector. -/
theorem gathered_real (x1 : IVec S2x800000 32) (idx : IVec S850000x1 32) (i : S850000.Idx) :
    ∃ r : ℝ, Host.gather gather_S50000_S850000x1_S850000_n_0_n_n_0_1_1 (val_main_v14 (F := Ideal) x1) idx i = (r : EReal) := by
  obtain ⟨e, rfl⟩ : ∃ e : Fin 850000, i = ix1 e := ⟨i 0, eq_ix1 i⟩
  rw [show gather_S50000_S850000x1_S850000_n_0_n_n_0_1_1
      = entriesDims 50000 850000 gather_S50000_S850000x1_S850000_n_0_n_n_0_1_1_wf from rfl,
    gather_entries_apply (by norm_num)]
  exact dinv_real x1 _

/-- The per-edge factor is real. -/
theorem norm_real (x1 : IVec S2x800000 32) (i : S850000.Idx) : ∃ r : ℝ, val_main_v29 (F := Ideal) x1 i = (r : EReal) := by
  rw [val_main_v29_apply]
  exact real_mul (gathered_real x1 _ i) (gathered_real x1 _ i)

end Cert.ReferenceIdeal.NormReal

end
-- ==== Proof.EdgeLaw.lean ====
/-
  The law that lets a weight matrix act after a segment sum whose rows are scaled edge by edge.

  X(e, k) is the row gathered for edge e, ν(e) the edge's factor, W(k) one column of the weight matrix and L the set
  of edges landing on one node. For real entries
      Σ_k (Σ_{e ∈ L} X(e, k) · ν(e)) · W(k)  =  Σ_{e ∈ L} (Σ_k X(e, k) · W(k)) · ν(e).
  In ℝ this is distributivity and an exchange of the two sums. On the extended reals distributivity fails at ±∞, so
  the entries are asked to be real numbers; the sums then are computed in ℝ.
-/
import proofs.«143485_j29368986370400_2_alg».proof.Proof.LibExtReals

noncomputable section

open scoped BigOperators

namespace Cert.EdgeLaw

open Idealize.ShloMosaic Cert.Net

/-- In ℝ: distributivity and an exchange of the two sums. -/
theorem real_edge_law {ι κ : Type} [Fintype ι] [Fintype κ] (L : ι → Prop) [DecidablePred L] (X : ι → κ → ℝ) (W : κ → ℝ)
    (ν : ι → ℝ) :
    ∑ k, (∑ e, if L e then X e k * ν e else 0) * W k = ∑ e, if L e then (∑ k, X e k * W k) * ν e else 0 := by
  simp only [Finset.sum_mul]
  rw [Finset.sum_comm]
  refine Finset.sum_congr rfl fun e _ => ?_
  by_cases h : L e
  · simp only [if_pos h]
    exact Finset.sum_congr rfl fun k _ => by ring
  · simp [if_neg h]

/-- On the extended reals, for real entries; each segment sum starts from zero, as the scatter-add into zeros does. -/
theorem edge_law {ι κ : Type} [Fintype ι] [Fintype κ] (L : ι → Prop) [DecidablePred L] (X : ι → κ → EReal) (W : κ → EReal)
    (ν : ι → EReal) (hX : ∀ e k, ∃ r : ℝ, X e k = (r : EReal)) (hW : ∀ k, ∃ r : ℝ, W k = (r : EReal))
    (hν : ∀ e, ∃ r : ℝ, ν e = (r : EReal)) :
    ∑ k, (0 + ∑ e, if L e then X e k * ν e else 0) * W k = 0 + ∑ e, if L e then (∑ k, X e k * W k) * ν e else 0 := by
  choose X' hX' using hX
  choose W' hW' using hW
  choose ν' hν' using hν
  have hite : ∀ (p : Prop) [Decidable p] (a : ℝ), (if p then (a : EReal) else 0) = ((if p then a else 0 : ℝ) : EReal) := by
    intro p _ a; split <;> simp
  simp only [zero_add, hX', hW', hν', hite, ← EReal.coe_mul, ← coe_sum]
  exact congrArg _ (real_edge_law L X' W' ν')

end Cert.EdgeLaw

end
-- ==== Proof.GcnPush.lean ====
/-
  A graph convolution whose weight matrix acts after the aggregation.

  X is the [N, K] array of node features, W a [K, C] matrix, ν an [R] vector of per-edge factors. For each edge e the
  row of its source node is gathered and scaled by ν(e); the rows are added into the row of the edge's target node
  (a scatter-add into zeros). Aggregating the K columns of X and multiplying by W afterwards gives, entry by entry, what
  aggregating the C columns of the product X·W gives:
      Σ_k (Σ_{e → n} X(src e, k) · ν(e)) · W(k, c)  =  Σ_{e → n} (Σ_k X(src e, k) · W(k, c)) · ν(e)
  for real entries (on the extended reals distributivity fails at ±∞). Which edges land on n does not depend on the
  column, and a gathered row of the product is the product of the gathered row.

  Generic in the four extents; nothing here depends on a program.
-/
import proofs.«143485_j29368986370400_2_alg».proof.Proof.LibSegLanding
import proofs.«143485_j29368986370400_2_alg».proof.Proof.LibDenseLayer
import proofs.«143485_j29368986370400_2_alg».proof.Proof.EdgeLaw

noncomputable section

open scoped BigOperators

namespace Cert.GcnPush

open Idealize.ShloMosaic Idealize.ShloMosaic.ValueIdx Cert.LibSegSum Cert.Net Cert.Layer Cert.EdgeLaw

variable {N R C : Nat}

/-- The rows gathered at the edges' sources, each scaled by its edge's factor (the factor vector spread over the
    columns by two keepdims broadcasts). -/
def msgs (wg : GatherDims.WF ⟨2, ![N, C]⟩ ⟨2, ![R, 1]⟩ ⟨2, ![R, C]⟩ [1] [0] [] [0] [] 1 ![1, C])
    (g1 : (⟨1, ![R]⟩ : Shape).BroadcastsInDim ⟨2, ![R, 1]⟩ ![0])
    (g2 : (⟨2, ![R, 1]⟩ : Shape).BroadcastsInDim ⟨2, ![R, C]⟩ ![0, 1])
    (X : FVec Ideal ⟨2, ![N, C]⟩ .f32) (sidx : IVec ⟨2, ![R, 1]⟩ 32) (ν : FVec Ideal ⟨1, ![R]⟩ .f32) :
    FVec Ideal ⟨2, ![R, C]⟩ .f32 :=
  mulf (Host.gather (rowsDims N R C wg) X sidx)
    (broadcastInDim ⟨2, ![R, C]⟩ ![0, 1] g2 (broadcastInDim ⟨2, ![R, 1]⟩ ![0] g1 ν))

/-- Entry (e, k) of the scaled gathered rows: the source row's entry k times the edge's factor. -/
theorem msgs_apply (hN : 0 < N)
    (wg : GatherDims.WF ⟨2, ![N, C]⟩ ⟨2, ![R, 1]⟩ ⟨2, ![R, C]⟩ [1] [0] [] [0] [] 1 ![1, C])
    (g1 : (⟨1, ![R]⟩ : Shape).BroadcastsInDim ⟨2, ![R, 1]⟩ ![0])
    (g2 : (⟨2, ![R, 1]⟩ : Shape).BroadcastsInDim ⟨2, ![R, C]⟩ ![0, 1])
    (X : FVec Ideal ⟨2, ![N, C]⟩ .f32) (sidx : IVec ⟨2, ![R, 1]⟩ 32) (ν : FVec Ideal ⟨1, ![R]⟩ .f32)
    (e : Fin R) (k : Fin C) :
    msgs wg g1 g2 X sidx ν (ix2 e k) = X (ix2 (clampIx hN (sidx (at0 e))) k) * ν (ix1 e) := by
  unfold msgs
  rw [mulf_apply, gather_rows_apply hN, bcast_col_apply]

/-- The weight matrix applied to the aggregated features is the aggregate of the projected features. -/
theorem push {K : Nat} (hN : 0 < N)
    (wsK : ScatterDims.WF ⟨2, ![N, K]⟩ ⟨2, ![R, 1]⟩ ⟨2, ![R, K]⟩ [1] [0] [0] 1)
    (wgK : GatherDims.WF ⟨2, ![N, K]⟩ ⟨2, ![R, 1]⟩ ⟨2, ![R, K]⟩ [1] [0] [] [0] [] 1 ![1, K])
    (wsC : ScatterDims.WF ⟨2, ![N, C]⟩ ⟨2, ![R, 1]⟩ ⟨2, ![R, C]⟩ [1] [0] [0] 1)
    (wgC : GatherDims.WF ⟨2, ![N, C]⟩ ⟨2, ![R, 1]⟩ ⟨2, ![R, C]⟩ [1] [0] [] [0] [] 1 ![1, C])
    (g1 : (⟨1, ![R]⟩ : Shape).BroadcastsInDim ⟨2, ![R, 1]⟩ ![0])
    (g2K : (⟨2, ![R, 1]⟩ : Shape).BroadcastsInDim ⟨2, ![R, K]⟩ ![0, 1])
    (g2C : (⟨2, ![R, 1]⟩ : Shape).BroadcastsInDim ⟨2, ![R, C]⟩ ![0, 1])
    (ZK : FVec Ideal ⟨2, ![N, K]⟩ .f32) (ZC : FVec Ideal ⟨2, ![N, C]⟩ .f32) (hZK : ∀ i, ZK i = 0) (hZC : ∀ i, ZC i = 0)
    (X : FVec Ideal ⟨2, ![N, K]⟩ .f32) (W : FVec Ideal ⟨2, ![K, C]⟩ .f32) (ν : FVec Ideal ⟨1, ![R]⟩ .f32)
    (sidx didx : IVec ⟨2, ![R, 1]⟩ 32)
    (hX : ∀ i, ∃ r : ℝ, X i = (r : EReal)) (hW : ∀ i, ∃ r : ℝ, W i = (r : EReal)) (hν : ∀ i, ∃ r : ℝ, ν i = (r : EReal)) :
    prod (Host.scatterAdd (addRowsDims N R K wsK) ZK didx (msgs wgK g1 g2K X sidx ν)) W
      = Host.scatterAdd (addRowsDims N R C wsC) ZC didx (msgs wgC g1 g2C (prod X W) sidx ν) := by
  funext j
  obtain ⟨n, c, rfl⟩ : ∃ (n : Fin N) (c : Fin C), j = ix2 n c := ⟨j 0, j 1, eq_ix2 j⟩
  show ∑ k : Fin K, Host.scatterAdd (addRowsDims N R K wsK) ZK didx (msgs wgK g1 g2K X sidx ν) (ix2 n k) * W (ix2 k c) = _
  simp only [scatterAdd_rows_apply, hZK, hZC, msgs_apply hN]
  exact edge_law (fun e : Fin R => (didx (at0 e)).toInt = (n.val : Int))
    (fun e k => X (ix2 (clampIx hN (sidx (at0 e))) k)) (fun k => W (ix2 k c)) (fun e => ν (ix1 e))
    (fun e k => hX _) (fun k => hW _) (fun e => hν _)

end Cert.GcnPush

end
-- ==== Proof.RefAgg.lean ====
/-
  The reference's aggregate is the weight matrix applied to the aggregate of the raw node features.

  The reference gathers the rows of X·W at the edges' sources, scales each by its edge's factor and adds them into the
  targets' rows. With X and W real and the factors real, this [50000, 256] array is the product with W of the
  [50000, 2] array obtained the same way from X itself — the array the kernel's program stages.
-/
import proofs.«143485_j29368986370400_2_alg».proof.Proof.RefReadP
import proofs.«143485_j29368986370400_2_alg».proof.Proof.NormReal
import proofs.«143485_j29368986370400_2_alg».proof.Proof.GcnPush

noncomputable section

namespace Cert.ReferenceIdeal.Agg

open Cert.ReferenceIdeal Cert.ReferenceIdeal.Gen Cert.ReferenceIdeal.ReadP Idealize.ShloMosaic Idealize.ShloMosaic.ValueIdx
open Cert.LibSegSum Cert.Net Cert.Layer Cert.GcnPush

/-- The zeros the reference adds into. -/
theorem zeros_apply (i : S50000x256.Idx) : val_main_v41 (F := Ideal) i = 0 := by
  rw [val_main_v41_apply, val_main_cst_8_apply]; exact Ideal.ofBits_zero_f32

/-- The aggregate of the projected features is the projection of the aggregated features. -/
theorem agg_eq
    (ws2 : ScatterDims.WF ⟨2, ![50000, 2]⟩ ⟨2, ![850000, 1]⟩ ⟨2, ![850000, 2]⟩ [1] [0] [0] 1)
    (wg2 : GatherDims.WF ⟨2, ![50000, 2]⟩ ⟨2, ![850000, 1]⟩ ⟨2, ![850000, 2]⟩ [1] [0] [] [0] [] 1 ![1, 2])
    (g22 : (⟨2, ![850000, 1]⟩ : Shape).BroadcastsInDim ⟨2, ![850000, 2]⟩ ![0, 1])
    (Z2 : FVec Ideal ⟨2, ![50000, 2]⟩ .f32) (hZ2 : ∀ i, Z2 i = 0)
    (x0 : FVec Ideal S50000x2 .f32) (x1 : IVec S2x800000 32) (x2 : FVec Ideal S2x256 .f32)
    (hX : ∀ i, ∃ r : ℝ, x0 i = (r : EReal)) (hW : ∀ i, ∃ r : ℝ, x2 i = (r : EReal)) :
    val_main_v43 (F := Ideal) x0 x1 x2
      = prod (Host.scatterAdd (addRowsDims 50000 850000 2 ws2) Z2 (val_main_v42 (F := Ideal) x1)
          (msgs wg2 bcast_S850000_S850000x1_0 g22 x0 (val_main_v36 (F := Ideal) x1) (val_main_v29 (F := Ideal) x1))) x2 := by
  refine Eq.trans ?_ (push (by norm_num) ws2 wg2 scatter_S50000x256_S850000x1_S850000x256_1_0_0_1_wf
    gather_S50000x256_S850000x1_S850000x256_1_0_n_n_0_1_1256_wf bcast_S850000_S850000x1_0 g22
    bcast_S850000x1_S850000x256_0_1 Z2 (val_main_v41 (F := Ideal)) hZ2 zeros_apply x0 x2 (val_main_v29 (F := Ideal) x1)
    (val_main_v36 (F := Ideal) x1) (val_main_v42 (F := Ideal) x1) hX hW (NormReal.norm_real x1)).symm
  rw [← dotGeneral_eq_prod dot_S50000x2_S2x256_S50000x256_1_0_0_1_n_n rfl rfl rfl rfl rfl rfl x0 x2]
  rfl

end Cert.ReferenceIdeal.Agg

end
-- ==== Proof.Bridge.lean ====
/-
  The two programs pool the same vector.

  Both programs normalise the rows of H = max(A + b, 0) and add them up. The reference forms A by aggregating the rows of
  X·W along the edges; the kernel's program aggregates the rows of X along the same edges with the same per-edge factors
  and multiplies by W afterwards. For real X and W (the precondition) and real factors the two arrays A are equal, so
  the normalised rows and their sums are equal.
-/
import proofs.«143485_j29368986370400_2_alg».proof.Proof.KernelPool
import proofs.«143485_j29368986370400_2_alg».proof.Proof.KernelAgg
import proofs.«143485_j29368986370400_2_alg».proof.Proof.RefAgg
import proofs.«143485_j29368986370400_2_alg».proof.Proof.RefPool

noncomputable section

open scoped BigOperators

namespace Cert.Bridge

open Idealize.ShloMosaic Idealize.ShloMosaic.TcCoe Idealize.ShloMosaic.ValueIdx Idealize.SL.Sem
open Cert.KernelIdeal Cert.KernelIdeal.Gen Cert.Layer Cert.Stage

variable (m : (ℓ : Loc nD τ sig) → Buf (Elt Ideal) ℓ)

/-- The zeros the kernel's program adds the scaled rows into. -/
theorem zeros_apply (i : S50000x2.Idx) :
    (broadcastInDim S50000x2 ![] bcast_S_S50000x2 (constant (F := Ideal) S_ .f32 0x00000000#32) : FVec Ideal S50000x2 .f32) i = 0 := by
  rw [broadcastInDim_scalar_apply, constant_apply]; exact Ideal.ofBits_zero_f32

/-- What the region finds in its first window, times W, is the reference's aggregate. -/
theorem agg_eq (c : Dev nD)
    (hX : ∀ i, ∃ r : ℝ, m ((c : Thread nD τ).loc main_arg0) i = (r : EReal))
    (hW : ∀ i, ∃ r : ℝ, m ((c : Thread nD τ).loc main_arg2) i = (r : EReal)) :
    prod (V m c main_v42 : S50000x2.Idx → EReal) (m ((c : Thread nD τ).loc main_arg2))
      = Cert.ReferenceIdeal.ReadP.val_main_v43 (F := Ideal) (m ((c : Thread nD τ).loc main_arg0))
          (m ((c : Thread nD τ).loc main_arg1)) (m ((c : Thread nD τ).loc main_arg2)) := by
  rw [Cert.KernelIdeal.Agg.V_agg, Cert.KernelIdeal.Agg.didx_eq, Cert.KernelIdeal.Agg.sidx_eq, Cert.KernelIdeal.Agg.norm_eq]
  exact (Cert.ReferenceIdeal.Agg.agg_eq scatter_S50000x2_S850000x1_S850000x2_1_0_0_1_wf
    gather_S50000x2_S850000x1_S850000x2_1_0_n_n_0_1_12_wf bcast_S850000x1_S850000x2_0_1 _ zeros_apply _ _ _ hX hW).symm

/-- The pooled vectors agree. -/
theorem pooled_eq (c : Dev nD)
    (hX : ∀ i, ∃ r : ℝ, m ((c : Thread nD τ).loc main_arg0) i = (r : EReal))
    (hW : ∀ i, ∃ r : ℝ, m ((c : Thread nD τ).loc main_arg2) i = (r : EReal)) :
    Cert.ReferenceIdeal.ReadP.val_main_v72 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      = Run.pool (F := Ideal) ((dats m 0 c).arrAt 5 cfg0.N) := by
  funext i
  obtain ⟨q, rfl⟩ : ∃ q : Fin 256, i = ix1 q := ⟨i 0, eq_ix1 i⟩
  rw [Cert.ReferenceIdeal.Pool.pooled_apply, PoolVal.pooled_apply]
  unfold TileRows.normed
  rw [agg_eq m c hX hW]

end Cert.Bridge

end
-- ==== Proof.lean ====
/-
  Kernel against reference for a graph-convolution network with an add-pool and a perceptron head.

  Both programs compute, from node features X [50000, 2], an edge list, weights W [2, 256], a bias, a scale and a shift:
  per-edge factors ν (products of guarded inverse square roots of the target degrees), hidden rows
  H = max(A + b, 0), their layer normalisation L, the pooled vector Σ_n L(n, ·), and a perceptron head with a
  log-softmax on the pooled vector. The reference builds A by aggregating the rows of X·W along the edges; the kernel's
  program aggregates the rows of X along the edges, and its fused kernel forms A = (aggregate)·W tile by tile (10 tiles of
  5000 rows on two cores, each core accumulating its five tile sums in one output block), the host adding the two cores'
  rows. For real X and W (the precondition) and real ν the two arrays A agree (distributivity and an exchange of two
  finite sums, in ℝ); sums of extended reals may be regrouped freely; the heads are the same function.
  The three frames are the generated ones (the reference's is its run with the result dropped); the idealization rewrote
  nothing.
-/
import proofs.«143485_j29368986370400_2_alg».proof.Defs
import proofs.«143485_j29368986370400_2_alg».proof.Proof.Gen.Kernel
import proofs.«143485_j29368986370400_2_alg».proof.Proof.Gen.Kernel.Skeleton
import proofs.«143485_j29368986370400_2_alg».proof.Proof.Gen.Kernel.Launch
import proofs.«143485_j29368986370400_2_alg».proof.Proof.Gen.Kernel.Points
import proofs.«143485_j29368986370400_2_alg».proof.Proof.Gen.Kernel.Frame
import proofs.«143485_j29368986370400_2_alg».proof.Proof.Gen.KernelIdeal
import proofs.«143485_j29368986370400_2_alg».proof.Proof.Gen.KernelIdeal.Skeleton
import proofs.«143485_j29368986370400_2_alg».proof.Proof.Gen.KernelIdeal.Launch
import proofs.«143485_j29368986370400_2_alg».proof.Proof.Gen.KernelIdeal.Points
import proofs.«143485_j29368986370400_2_alg».proof.Proof.Gen.KernelIdeal.Frame
import proofs.«143485_j29368986370400_2_alg».proof.Proof.Gen.ReferenceIdeal
import proofs.«143485_j29368986370400_2_alg».proof.Proof.Gen.Pre_finite_inputs
import proofs.«143485_j29368986370400_2_alg».proof.Proof.RefRunP
import proofs.«143485_j29368986370400_2_alg».proof.Proof.RefReadP
import proofs.«143485_j29368986370400_2_alg».proof.Proof.RefPool
import proofs.«143485_j29368986370400_2_alg».proof.Proof.KernelRun
import proofs.«143485_j29368986370400_2_alg».proof.Proof.FiniteArgs
import proofs.«143485_j29368986370400_2_alg».proof.Proof.Bridge
import Idealize.ShloMosaic.Adequacy
import Idealize.ShloMosaic.Init

noncomputable section

namespace Cert.Proof

open Idealize.ShloMosaic Idealize.SL.Sem Cert.Kernel

/-- The two heads (perceptron and log-softmax on the pooled vector) are one function. -/
theorem head_eq (p : FVec Ideal Cert.KernelIdeal.S256 .f32) (x6 : FVec Ideal Cert.KernelIdeal.S256x256 .f32) (x7 : FVec Ideal Cert.KernelIdeal.S256 .f32)
    (x8 : FVec Ideal Cert.KernelIdeal.S256x10 .f32) (x9 : FVec Ideal Cert.KernelIdeal.S10 .f32) :
    Cert.ReferenceIdeal.Pool.head (F := Ideal) p x6 x7 x8 x9 = Cert.KernelIdeal.Run.head (F := Ideal) p x6 x7 x8 x9 := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

theorem preserves : Cert.preserves_Kernel_KernelIdeal := trivial

/-- Both runs end with the head applied to one pooled vector. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Run.head (F := Ideal) (Cert.KernelIdeal.Run.pool (F := Ideal) ((Cert.KernelIdeal.Gen.dats m 0 c).arrAt 5 Cert.KernelIdeal.cfg0.N))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.Run.run m ρ, ?_⟩
  refine (θ_run Cert.ReferenceIdeal.defs _ _).mono (fun _ h c => ⟨(h c).1.trans ?_, (h c).2⟩) (Cert.ReferenceIdeal.ValueP.run (F := Ideal) m' ρ')
  obtain ⟨hX, hW⟩ := Cert.FiniteArgs.real_args _ _ _ _ _ _ _ _ _ _ (hpre c)
  rw [Cert.ReferenceIdeal.ReadP.val_main_v81_eq, Cert.ReferenceIdeal.Pool.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  rw [Cert.Bridge.pooled_eq m c hX hW]
  exact head_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
